-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768 : Shape := ⟨1, ![768]⟩
abbrev S2304x768 : Shape := ⟨2, ![2304, 768]⟩
abbrev S768x768 : Shape := ⟨2, ![768, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_arg4 : FVec F S768x768 .f32) (main_arg5 : FVec F S768 .f32) (main_v13 : IVec S_ 1) (main_v16 : IVec S2304x768 1) : IVec S_ 1 :=
  let main_c_5 : IVec S_ 1 := constantI S_ 1 1#1
  let main_v17 : IVec S_ 1 := (fun x v => Host.reduce IntOp.andi x v reducesTo_S2304x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S4x2048x768 .f32) (main_arg1 : FVec F S768 .f32) (main_arg2 : FVec F S768 .f32) (main_arg3 : FVec F S2304x768 .f32) (main_arg4 : FVec F S768x768 .f32) (main_arg5 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S2304x768 .f32 := Host.absf main_arg3
  let main_cst_4 : FVec F S_ .f32 := constant S_ .f32 0x7F800000#32
  let main_v15 : FVec F S2304x768 .f32 := broadcastInDim S2304x768 ![] bcast_S_S2304x768 main_cst_4
  let main_v16 : IVec S2304x768 1 := cmpf .olt main_v14 main_v15
  fn_part1 (F := F) main_arg4 main_arg5 main_v13 main_v16
-- ==== Kernel.lean ====
abbrev S4x2048x768 : Shape := ⟨3, ![4, 2048, 768]⟩
abbrev S768 : Shape := ⟨1, ![768]⟩
abbrev S2304x768 : Shape := ⟨2, ![2304, 768]⟩
abbrev S768x768 : Shape := ⟨2, ![768, 768]⟩
abbrev S1x768 : Shape := ⟨2, ![1, 768]⟩
abbrev S4x2048x2304 : Shape := ⟨3, ![4, 2048, 2304]⟩
abbrev S1x512x768 : Shape := ⟨3, ![1, 512, 768]⟩
abbrev S1x512x2304 : Shape := ⟨3, ![1, 512, 2304]⟩
abbrev S512x768 : Shape := ⟨2, ![512, 768]⟩
abbrev S512 : Shape := ⟨1, ![512]⟩
abbrev S512x1 : Shape := ⟨2, ![512, 1]⟩
abbrev S512x2304 : Shape := ⟨2, ![512, 2304]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S768, .f32⟩
  | .hbm, ⟨3, _⟩ => ⟨S2304x768, .f32⟩
  | .hbm, ⟨4, _⟩ => ⟨S768x768, .f32⟩
  | .hbm, ⟨5, _⟩ => ⟨S768, .f32⟩
  | .hbm, ⟨6, _⟩ => ⟨S2304x768, .bf16⟩
  | .hbm, ⟨7, _⟩ => ⟨S768x768, .bf16⟩
  | .hbm, ⟨8, _⟩ => ⟨S1x768, .f32⟩
  | .hbm, ⟨9, _⟩ => ⟨S1x768, .f32⟩
  | .hbm, ⟨10, _⟩ => ⟨S1x768, .f32⟩
  | .hbm, ⟨11, _⟩ => ⟨S4x2048x2304, .bf16⟩
  | .hbm, ⟨12, _⟩ => ⟨S4x2048x768, .f32⟩
  | .local _ .vmem, ⟨0, _⟩ => ⟨S1x512x768, .f32⟩
  | .local _ .vmem, ⟨1, _⟩ => ⟨S1x512x768, .f32⟩
  | .local _ .vmem, ⟨2, _⟩ => ⟨S1x768, .f32⟩
  | .local _ .vmem, ⟨3, _⟩ => ⟨S1x768, .f32⟩
  | .local _ .vmem, ⟨4, _⟩ => ⟨S2304x768, .bf16⟩
  | .local _ .vmem, ⟨5, _⟩ => ⟨S1x512x2304, .bf16⟩
  | .local _ .vmem, ⟨6, _⟩ => ⟨S1x512x2304, .bf16⟩
  | .local _ .vmem, ⟨7, _⟩ => ⟨S1x256x768, .bf16⟩
  | .local _ .vmem, ⟨8, _⟩ => ⟨S1x256x768, .bf16⟩
  | .local _ .vmem, ⟨9, _⟩ => ⟨S1x2048x768, .bf16⟩
  | .local _ .vmem, ⟨10, _⟩ => ⟨S1x2048x768, .bf16⟩
  | .local _ .vmem, ⟨11, _⟩ => ⟨S1x2048x768, .bf16⟩
  | .local _ .vmem, ⟨12, _⟩ => ⟨S1x2048x768, .bf16⟩
  | .local _ .vmem, ⟨13, _⟩ => ⟨S768x768, .bf16⟩
  | .local _ .vmem, ⟨14, _⟩ => ⟨S1x768, .f32⟩
  | .local _ .vmem, ⟨15, _⟩ => ⟨S1x256x768, .f32⟩
  | .local _ .vmem, ⟨16, _⟩ => ⟨S1x256x768, .f32⟩
  | .local _ .vmem, ⟨17, _⟩ => ⟨S256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2304x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  shapeCasts_S768_S1x768 : S768.ShapeCasts S1x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  shapeCasts_S512x2304_S1x512x2304 : S512x2304.ShapeCasts S1x512x2304
  packedbf16_S1x512x2304_S1x512x2304_0_0_0 : (Rect.unit (s := S1x512x2304) ![0, 0, 0] S1x512x2304.size inb_S1x512x2304_S1x512x2304_0_0_0).PackedRows (EltTy.packing .bf16)
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  slices_S256x768_o0_0_S256x64 : S256x768.Slices ![0, 0] S256x64
  slices_S2048x768_o0_0_S2048x64 : S2048x768.Slices ![0, 0] S2048x64
  reduces_S256x2048_S256 : S256x2048.Reduces [1] S256
  shapeCasts_S256_S256x1 : S256.ShapeCasts S256x1
  broadcasts_S256x1_S256x2048 : S256x1.Broadcasts S256x2048
  inb_S256x768_S256x64_0_0 : ∀ a, (![0, 0] : Fin 2 → Nat) a + S256x64.size a ≤ S256x768.size a
  h_S256x64 : 0 < S256x64.numel
  shapeCasts_S256x64_S256x64 : S256x64.ShapeCasts S256x64
  slices_S256x768_o0_64_S256x64 : S256x768.Slices ![0, 64] S256x64
  slices_S2048x768_o0_64_S2048x64 : S2048x768.Slices ![0, 64] S2048x64
  inb_S256x768_S256x64_0_64 : ∀ a, (![0, 64] : Fin 2 → Nat) a + S256x64.size a ≤ S256x768.size a
  slices_S256x768_o0_128_S256x64 : S256x768.Slices ![0, 128] S256x64
  slices_S2048x768_o0_128_S2048x64 : S2048x768.Slices ![0, 128] S2048x64
  inb_S256x768_S256x64_0_128 : ∀ a, (![0, 128] : Fin 2 → Nat) a + S256x64.size a ≤ S256x768.size a
  slices_S256x768_o0_192_S256x64 : S256x768.Slices ![0, 192] S256x64
  slices_S2048x768_o0_192_S2048x64 : S2048x768.Slices ![0, 192] S2048x64
  inb_S256x768_S256x64_0_192 : ∀ a, (![0, 192] : Fin 2 → Nat) a + S256x64.size a ≤ S256x768.size a
  slices_S256x768_o0_256_S256x64 : S256x768.Slices ![0, 256] S256x64
  slices_S2048x768_o0_256_S2048x64 : S2048x768.Slices ![0, 256] S2048x64
  inb_S256x768_S256x64_0_256 : ∀ a, (![0, 256] : Fin 2 → Nat) a + S256x64.size a ≤ S256x768.size a
  slices_S256x768_o0_320_S256x64 : S256x768.Slices ![0, 320] S256x64
  slices_S2048x768_o0_320_S2048x64 : S2048x768.Slices ![0, 320] S2048x64
  inb_S256x768_S256x64_0_320 : ∀ a, (![0, 320] : Fin 2 → Nat) a + S256x64.size a ≤ S256x768.size a
  slices_S256x768_o0_384_S256x64 : S256x768.Slices ![0, 384] S256x64
  slices_S2048x768_o0_384_S2048x64 : S2048x768.Slices ![0, 384] S2048x64
  inb_S256x768_S256x64_0_384 : ∀ a, (![0, 384] : Fin 2 → Nat) a + S256x64.size a ≤ S256x768.size a
  slices_S256x768_o0_448_S256x64 : S256x768.Slices ![0, 448] S256x64
  slices_S2048x768_o0_448_S2048x64 : S2048x768.Slices ![0, 448] S2048x64
  inb_S256x768_S256x64_0_448 : ∀ a, (![0, 448] : Fin 2 → Nat) a + S256x64.size a ≤ S256x768.size a
  slices_S256x768_o0_512_S256x64 : S256x768.Slices ![0, 512] S256x64
  slices_S2048x768_o0_512_S2048x64 : S2048x768.Slices ![0, 512] S2048x64
  inb_S256x768_S256x64_0_512 : ∀ a, (![0, 512] : Fin 2 → Nat) a + S256x64.size a ≤ S256x768.size a
  slices_S256x768_o0_576_S256x64 : S256x768.Slices ![0, 576] S256x64
  slices_S2048x768_o0_576_S2048x64 : S2048x768.Slices ![0, 576] S2048x64
  inb_S256x768_S256x64_0_576 : ∀ a, (![0, 576] : Fin 2 → Nat) a + S256x64.size a ≤ S256x768.size a
  slices_S256x768_o0_640_S256x64 : S256x768.Slices ![0, 640] S256x64
  slices_S2048x768_o0_640_S2048x64 : S2048x768.Slices ![0, 640] S2048x64
  inb_S256x768_S256x64_0_640 : ∀ a, (![0, 640] : Fin 2 → Nat) a + S256x64.size a ≤ S256x768.size a
  slices_S256x768_o0_704_S256x64 : S256x768.Slices ![0, 704] S256x64
  slices_S2048x768_o0_704_S2048x64 : S2048x768.Slices ![0, 704] S2048x64
  inb_S256x768_S256x64_0_704 : ∀ a, (![0, 704] : Fin 2 → Nat) a + S256x64.size a ≤ S256x768.size a
  inb_S256x768_S256x768_0_0 : ∀ a, (![0, 0] : Fin 2 → Nat) a + S256x768.size a ≤ S256x768.size a
  h_S256x768 : 0 < S256x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  broadcasts_S1x768_S256x768 : S1x768.Broadcasts S256x768
  shapeCasts_S256x768_S1x256x768 : S256x768.ShapeCasts S1x256x768
  dot_S512x768_S2304x768_S512x2304_1_1_0_0_n_n_wf : DotDims.WF S512x768 S2304x768 S512x2304 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x768_S768x768_S256x768_1_1_0_0_n_n_wf : DotDims.WF S256x768 S768x768 S256x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x2048x768.size a
  hwx0_0 : ∀ i : grid0.Coords, EltTy.bits .f32 = 32 ∨ (Rect.block (s := S4x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x768.size a ≤ S2304x768.size a
  hwx0_3 : ∀ i : grid0.Coords, EltTy.bits .bf16 = 32 ∨ (Rect.block (s := S2304x768) S2304x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2304.size a ≤ S4x2048x2304.size a
  hwx0_4 : ∀ i : grid0.Coords, EltTy.bits .bf16 = 32 ∨ (Rect.block (s := S4x2048x2304) S1x512x2304.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S4x2048x2304.size a
  hwx1_0 : ∀ i : grid1.Coords, EltTy.bits .bf16 = 32 ∨ (Rect.block (s := S4x2048x2304) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S4x2048x2304.size a
  hwx1_1 : ∀ i : grid1.Coords, EltTy.bits .bf16 = 32 ∨ (Rect.block (s := S4x2048x2304) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S4x2048x2304.size a
  hwx1_2 : ∀ i : grid1.Coords, EltTy.bits .bf16 = 32 ∨ (Rect.block (s := S4x2048x2304) S1x2048x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x768.size a ≤ S4x2048x768.size a
  hwx1_5 : ∀ i : grid1.Coords, EltTy.bits .f32 = 32 ∨ (Rect.block (s := S4x2048x768) S1x256x768.size (cc1_transform_5 i) (hinb1_5 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2304x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x2304.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S768 : Shape := ⟨1, ![768]⟩
abbrev S2304x768 : Shape := ⟨2, ![2304, 768]⟩
abbrev S768x768 : Shape := ⟨2, ![768, 768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x2304 : Shape := ⟨3, ![4, 2048, 2304]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S768, .f32⟩
  | .hbm, ⟨3, _⟩ => ⟨S2304x768, .f32⟩
  | .hbm, ⟨4, _⟩ => ⟨S768x768, .f32⟩
  | .hbm, ⟨5, _⟩ => ⟨S768, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x768, .f32⟩
  | .hbm, ⟨13, _⟩ => ⟨S4x2048x768, .f32⟩
  | .hbm, ⟨14, _⟩ => ⟨S4x2048x768, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x768, .f32⟩
  | .hbm, ⟨22, _⟩ => ⟨S4x2048x768, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x768, .f32⟩
  | .hbm, ⟨28, _⟩ => ⟨S4x2048x768, .f32⟩
  | .hbm, ⟨29, _⟩ => ⟨S1x1x768, .f32⟩
  | .hbm, ⟨30, _⟩ => ⟨S4x2048x768, .f32⟩
  | .hbm, ⟨31, _⟩ => ⟨S4x2048x768, .f32⟩
  | .hbm, ⟨32, _⟩ => ⟨S1x1x768, .f32⟩
  | .hbm, ⟨33, _⟩ => ⟨S4x2048x768, .f32⟩
  | .hbm, ⟨34, _⟩ => ⟨S4x2048x768, .f32⟩
  | .hbm, ⟨35, _⟩ => ⟨S4x2048x2304, .f32⟩
  | .hbm, ⟨36, _⟩ => ⟨S4x2048x768, .f32⟩
  | .hbm, ⟨37, _⟩ => ⟨S4x2048x768, .f32⟩
  | .hbm, ⟨38, _⟩ => ⟨S4x2048x768, .f32⟩
  | .hbm, ⟨39, _⟩ => ⟨S4x2048x12x64, .f32⟩
  | .hbm, ⟨40, _⟩ => ⟨S4x12x2048x64, .f32⟩
  | .hbm, ⟨41, _⟩ => ⟨S4x2048x12x64, .f32⟩
  | .hbm, ⟨42, _⟩ => ⟨S4x12x2048x64, .f32⟩
  | .hbm, ⟨43, _⟩ => ⟨S4x2048x12x64, .f32⟩
  | .hbm, ⟨44, _⟩ => ⟨S4x12x2048x64, .f32⟩
  | .hbm, ⟨45, _⟩ => ⟨S4x12x2048x2048, .f32⟩
  | .hbm, ⟨46, _⟩ => ⟨S_, .f32⟩
  | .hbm, ⟨47, _⟩ => ⟨S4x12x2048x2048, .f32⟩
  | .hbm, ⟨48, _⟩ => ⟨S4x12x2048x2048, .f32⟩
  | .hbm, ⟨49, _⟩ => ⟨S_, .f32⟩
  | .hbm, ⟨50, _⟩ => ⟨S4x12x2048, .f32⟩
  | .hbm, ⟨51, _⟩ => ⟨S_, .f32⟩
  | .hbm, ⟨52, _⟩ => ⟨S4x12x2048, .f32⟩
  | .hbm, ⟨53, _⟩ => ⟨S4x12x2048, .f32⟩
  | .hbm, ⟨54, _⟩ => ⟨S4x12x2048x1, .f32⟩
  | .hbm, ⟨55, _⟩ => ⟨S4x12x2048x2048, .f32⟩
  | .hbm, ⟨56, _⟩ => ⟨S4x12x2048x2048, .f32⟩
  | .hbm, ⟨57, _⟩ => ⟨S4x12x2048x2048, .f32⟩
  | .hbm, ⟨58, _⟩ => ⟨S_, .f32⟩
  | .hbm, ⟨59, _⟩ => ⟨S4x12x2048, .f32⟩
  | .hbm, ⟨60, _⟩ => ⟨S4x12x2048x1, .f32⟩
  | .hbm, ⟨61, _⟩ => ⟨S4x12x2048x2048, .f32⟩
  | .hbm, ⟨62, _⟩ => ⟨S4x12x2048x2048, .f32⟩
  | .hbm, ⟨63, _⟩ => ⟨S4x12x2048x64, .f32⟩
  | .hbm, ⟨64, _⟩ => ⟨S4x2048x12x64, .f32⟩
  | .hbm, ⟨65, _⟩ => ⟨S4x2048x768, .f32⟩
  | .hbm, ⟨66, _⟩ => ⟨S4x2048x768, .f32⟩
  | .hbm, ⟨67, _⟩ => ⟨S1x1x768, .f32⟩
  | .hbm, ⟨68, _⟩ => ⟨S4x2048x768, .f32⟩
  | .hbm, ⟨69, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]

class Facts₀ : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.KBHeads.lean ====
/-
  The twelve 64-column pieces the second kernel's body stores into its 256×768 accumulator, one per head, as
  functions of the three blocks it loads (queries, keys, values): piece `h` is the head's weighted sum of value rows.
-/
import proofs.«140084_j52699248722576_2_alg».proof.Proof.Gen.Kernel.Skeleton

noncomputable section

namespace Cert.Kernel.Hand

open Cert.Kernel Cert.Kernel.Gen Idealize.ShloMosaic

variable {F : FTy → Type} [FloatOps F]

/-- What the body stores at columns `64 h … 64 h + 63` of the accumulator. -/
def heads (v0 : Vec F S1x256x768 .bf16) (v2 v4 : Vec F S1x2048x768 .bf16) : Fin 12 → FVec F S256x64 .f32
  | ⟨0, _⟩ => k1_pay5 v0 v2 v4
  | ⟨1, _⟩ => k1_pay8 (k1_pay6 v4) (k1_pay7 v0 v2)
  | ⟨2, _⟩ => k1_pay9 (k1_pay2 v0) (k1_pay3 v2) (k1_pay4 v4)
  | ⟨3, _⟩ => k1_pay12 (k1_pay10 (k1_pay4 v4)) (k1_pay11 (k1_pay2 v0) (k1_pay3 v2))
  | ⟨4, _⟩ => k1_pay13 (k1_pay2 v0) (k1_pay3 v2) (k1_pay4 v4)
  | ⟨5, _⟩ => k1_pay15 (k1_pay14 (k1_pay2 v0) (k1_pay3 v2) (k1_pay4 v4))
  | ⟨6, _⟩ => k1_pay16 (k1_pay2 v0) (k1_pay3 v2) (k1_pay4 v4)
  | ⟨7, _⟩ => k1_pay17 (k1_pay2 v0) (k1_pay3 v2) (k1_pay4 v4)
  | ⟨8, _⟩ => k1_pay18 (k1_pay2 v0) (k1_pay3 v2) (k1_pay4 v4)
  | ⟨9, _⟩ => k1_pay19 (k1_pay2 v0) (k1_pay3 v2) (k1_pay4 v4)
  | ⟨10, _⟩ => k1_pay23 (k1_pay20 (k1_pay2 v0)) (k1_pay21 (k1_pay3 v2)) (k1_pay22 (k1_pay4 v4))
  | ⟨11, _⟩ => k1_pay24 (k1_pay2 v0) (k1_pay3 v2) (k1_pay4 v4)

end Cert.Kernel.Hand

end
-- ==== Proof.KBBody0.lean ====
/-
  The first kernel's body (layer normalisation of a 512×768 block, then its product with the 2304×768 weight) run on
  whole staging buffers: it loads its three inputs and the weight through whole-buffer rectangles, loads the output
  buffer once (the value is not used) and stores the payload `k0_pay1` of the four loaded blocks through the
  whole-buffer rectangle. So the output buffer ends at that payload of the inputs' contents (`out0_4_eq`), whatever it
  held, and the inputs are left as they were (`sound_kernel0`). Generic in the float instance.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first body's accesses: every load and the one store go through the whole buffer -/

abbrev r0_x0 : Rect S1x512x768 := Rect.unit (s := S1x512x768) ![0, 0, 0] S1x512x768.size inb_S1x512x768_S1x512x768_0_0_0
abbrev r0_x1 : Rect S1x768 := Rect.unit (s := S1x768) ![0, 0] S1x768.size inb_S1x768_S1x768_0_0
abbrev r0_x3 : Rect S2304x768 := Rect.unit (s := S2304x768) ![0, 0] S2304x768.size inb_S2304x768_S2304x768_0_0
abbrev r0_out : Rect S1x512x2304 := Rect.unit (s := S1x512x2304) ![0, 0, 0] S1x512x2304.size inb_S1x512x2304_S1x512x2304_0_0_0

/-- The offsets of a whole-buffer access are all zero, however the zeros are spelt. -/
theorem zero3 : (![0, 0, 0] : Fin 3 → ℕ) = fun _ => 0 := by funext a; fin_cases a <;> rfl
theorem zero2 : (![0, 0] : Fin 2 → ℕ) = fun _ => 0 := by funext a; fin_cases a <;> rfl

/-- What the body leaves in the output buffer: its one store, of the payload of the four blocks it loads. -/
def out0_4 (x0 : Vec F S1x512x768 .f32) (x1 x2 : Vec F S1x768 .f32) (x3 : Vec F S2304x768 .bf16) : Vec F S1x512x2304 .bf16 :=
  View.canon [⟨r0_out, k0_pay1 (View.ld x0 r0_x0) (View.ld x1 r0_x1) (View.ld x2 r0_x1) (View.ld x3 r0_x3)⟩]

/-- Through whole-buffer rectangles a load reads the contents and the one store leaves its payload. -/
theorem out0_4_eq (x0 : Vec F S1x512x768 .f32) (x1 x2 : Vec F S1x768 .f32) (x3 : Vec F S2304x768 .bf16) :
    out0_4 (F := F) x0 x1 x2 x3 = k0_pay1 x0 x1 x2 x3 := by
  unfold out0_4
  rw [View.canon_unit_zero zero3, View.ld_unit_zero (S := S1x512x768) zero3, View.ld_unit_zero (S := S1x768) zero2,
    View.ld_unit_zero (S := S1x768) zero2, View.ld_unit_zero (S := S2304x768) zero2]

/-- The store covers the buffer. -/
theorem cover0_4 (p0 : Vec F S1x512x2304 .bf16) (y : S1x512x2304.Idx) :
    ∃ pc ∈ ([⟨r0_out, p0⟩] : List (View.Piece (Elt F) S1x512x2304 .bf16)), y ∈ pc.1.set :=
  ⟨⟨r0_out, p0⟩, List.mem_singleton_self _, View.mem_set_unit_zero zero3 inb_S1x512x2304_S1x512x2304_0_0_0 y⟩

set_option maxHeartbeats 1000000 in
/-- The body on whole staging buffers, the inputs' at read contents and the output's at anything, runs to the
    continuation holding the inputs' as they were and the output's at `out0_4` of the inputs'. -/
theorem sound_kernel0 (c : Dev nD) (E : Set ℕ) (i : grid0.Coords)
    (arg2 : Memref sig .tc .vmem S1x512x768 .f32) (harg2 : arg2.IsWhole) (arg3 : Memref sig .tc .vmem S1x768 .f32) (harg3 : arg3.IsWhole)
    (arg4 : Memref sig .tc .vmem S1x768 .f32) (harg4 : arg4.IsWhole) (arg5 : Memref sig .tc .vmem S2304x768 .bf16) (harg5 : arg5.IsWhole)
    (arg6 : Memref sig .tc .vmem S1x512x2304 .bf16) (harg6 : arg6.IsWhole)
    (x0 : Vec F S1x512x768 .f32) (x1 x2 : Vec F S1x768 .f32) (x3 : Vec F S2304x768 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0_ln_qkv_kernel i arg2 harg2 arg3 harg3 arg4 harg4 arg5 harg5 arg6 harg6) K := by
  simp only [cc0_ln_qkv_kernel_eq_skeleton]; unfold cc0_ln_qkv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- info: 'Cert.Kernel.Hand.sound_kernel0' depends on axioms: [propext, Classical.choice, Quot.sound] -/
#guard_msgs in #print axioms sound_kernel0

end Cert.Kernel.Hand

end
-- ==== Proof.KBRegion0.lean ====
/-
  The two kernel regions of the program, each at the buffer contents `V` it is entered from: the block of each
  window at a grid point, what the body leaves in each window's staging buffer at a point (an input's block stays;
  the output's is the body's result on the input blocks), and the body obligation at every point.
  In the second region three input windows read ONE array (its query, key and value thirds), so that array is held
  at three shares that together make the full share.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Tactic
import proofs.«140084_j52699248722576_2_alg».proof.Proof.KBBody0
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- After the body at point `t`: each input's buffer at its block, the output's at the body's result. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KBBody1.lean ====
/-
  The second kernel's body (attention of a 256-row query block against 2048 keys and values, head by head, then the
  output projection) run on whole staging buffers. It loads the query, key and value blocks whole; for each of the
  twelve heads `h` it loads columns `64 h … 64 h + 63` of the 256×768 accumulator (the value is not used) and stores
  there the head's 256×64 weighted sum of value rows (`heads … h`); then it loads the accumulator whole, loads the
  projection weight and the bias whole, loads the output buffer once (not used) and stores the payload `k1_pay1` of the
  accumulator (rounded by `k1_pay25`), the weight and the bias through the whole-buffer rectangle.

  The twelve stores are the twelve column blocks of ONE function of the accumulator's index (`accFn`: column `j`
  belongs to head `j / 64`, at column `j % 64` of its block), and they tile the accumulator; so read whole it holds
  head `h`'s block at columns `64 h + d` (`acc1_apply`), whatever it held before. The output buffer ends at
  `k1_pay1 (k1_pay25 (acc1 …)) …` of the inputs' contents (`out1_5_eq`); the inputs are left as they were and the
  accumulator at something (`sound_kernel1`). Generic in the float instance.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second body's accesses -/

abbrev r1_q : Rect S1x256x768 := Rect.unit (s := S1x256x768) ![0, 0, 0] S1x256x768.size inb_S1x256x768_S1x256x768_0_0_0
abbrev r1_kv : Rect S1x2048x768 := Rect.unit (s := S1x2048x768) ![0, 0, 0] S1x2048x768.size inb_S1x2048x768_S1x2048x768_0_0_0
abbrev r1_w : Rect S768x768 := Rect.unit (s := S768x768) ![0, 0] S768x768.size inb_S768x768_S768x768_0_0
abbrev r1_b : Rect S1x768 := Rect.unit (s := S1x768) ![0, 0] S1x768.size inb_S1x768_S1x768_0_0
abbrev r1_acc : Rect S256x768 := Rect.unit (s := S256x768) ![0, 0] S256x768.size inb_S256x768_S256x768_0_0
abbrev r1_h0 : Rect S256x768 := Rect.unit (s := S256x768) ![0, 0] S256x64.size inb_S256x768_S256x64_0_0
abbrev r1_h1 : Rect S256x768 := Rect.unit (s := S256x768) ![0, 64] S256x64.size inb_S256x768_S256x64_0_64
abbrev r1_h2 : Rect S256x768 := Rect.unit (s := S256x768) ![0, 128] S256x64.size inb_S256x768_S256x64_0_128
abbrev r1_h3 : Rect S256x768 := Rect.unit (s := S256x768) ![0, 192] S256x64.size inb_S256x768_S256x64_0_192
abbrev r1_h4 : Rect S256x768 := Rect.unit (s := S256x768) ![0, 256] S256x64.size inb_S256x768_S256x64_0_256
abbrev r1_h5 : Rect S256x768 := Rect.unit (s := S256x768) ![0, 320] S256x64.size inb_S256x768_S256x64_0_320
abbrev r1_h6 : Rect S256x768 := Rect.unit (s := S256x768) ![0, 384] S256x64.size inb_S256x768_S256x64_0_384
abbrev r1_h7 : Rect S256x768 := Rect.unit (s := S256x768) ![0, 448] S256x64.size inb_S256x768_S256x64_0_448
abbrev r1_h8 : Rect S256x768 := Rect.unit (s := S256x768) ![0, 512] S256x64.size inb_S256x768_S256x64_0_512
abbrev r1_h9 : Rect S256x768 := Rect.unit (s := S256x768) ![0, 576] S256x64.size inb_S256x768_S256x64_0_576
abbrev r1_h10 : Rect S256x768 := Rect.unit (s := S256x768) ![0, 640] S256x64.size inb_S256x768_S256x64_0_640
abbrev r1_h11 : Rect S256x768 := Rect.unit (s := S256x768) ![0, 704] S256x64.size inb_S256x768_S256x64_0_704

/-- The offsets of a whole-buffer access are all zero, however the zeros are spelt. -/
theorem offs3_zero : (![0, 0, 0] : Fin 3 → ℕ) = fun _ => 0 := by funext a; fin_cases a <;> rfl
theorem offs2_zero : (![0, 0] : Fin 2 → ℕ) = fun _ => 0 := by funext a; fin_cases a <;> rfl

/-- The accumulator's twelve stores as pieces, LAST FIRST: head `h`'s 256×64 block at columns `64 h … 64 h + 63`,
    over the three loaded blocks. -/
def pieces1 (v0 : Vec F S1x256x768 .bf16) (v2 v4 : Vec F S1x2048x768 .bf16) : List (View.Piece (Elt F) S256x768 .f32) :=
  [⟨r1_h11, heads v0 v2 v4 ⟨11, by decide⟩⟩,
   ⟨r1_h10, heads v0 v2 v4 ⟨10, by decide⟩⟩,
   ⟨r1_h9, heads v0 v2 v4 ⟨9, by decide⟩⟩,
   ⟨r1_h8, heads v0 v2 v4 ⟨8, by decide⟩⟩,
   ⟨r1_h7, heads v0 v2 v4 ⟨7, by decide⟩⟩,
   ⟨r1_h6, heads v0 v2 v4 ⟨6, by decide⟩⟩,
   ⟨r1_h5, heads v0 v2 v4 ⟨5, by decide⟩⟩,
   ⟨r1_h4, heads v0 v2 v4 ⟨4, by decide⟩⟩,
   ⟨r1_h3, heads v0 v2 v4 ⟨3, by decide⟩⟩,
   ⟨r1_h2, heads v0 v2 v4 ⟨2, by decide⟩⟩,
   ⟨r1_h1, heads v0 v2 v4 ⟨1, by decide⟩⟩,
   ⟨r1_h0, heads v0 v2 v4 ⟨0, by decide⟩⟩]

/-- What the accumulator holds when it is read whole: the canon of its twelve stores over the loaded blocks. -/
def acc1 (x0 : Vec F S1x256x768 .bf16) (x1 x2 : Vec F S1x2048x768 .bf16) : Vec F S256x768 .f32 :=
  View.canon (pieces1 (View.ld x0 r1_q) (View.ld x1 r1_kv) (View.ld x2 r1_kv))

/-- What the body leaves in the output buffer: its one store, of the projection of the accumulator read whole. -/
def out1_5 (x0 : Vec F S1x256x768 .bf16) (x1 x2 : Vec F S1x2048x768 .bf16) (x3 : Vec F S768x768 .bf16) (x4 : Vec F S1x768 .f32) : Vec F S1x256x768 .f32 :=
  View.canon [⟨r1_q, k1_pay1 (k1_pay25 (View.ld (acc1 x0 x1 x2) r1_acc)) (View.ld x3 r1_w) (View.ld x4 r1_b)⟩]

theorem out1_5_eq (x0 : Vec F S1x256x768 .bf16) (x1 x2 : Vec F S1x2048x768 .bf16) (x3 : Vec F S768x768 .bf16) (x4 : Vec F S1x768 .f32) :
    out1_5 (F := F) x0 x1 x2 x3 x4 = k1_pay1 (k1_pay25 (acc1 x0 x1 x2)) x3 x4 := by
  unfold out1_5
  rw [View.canon_unit_zero offs3_zero, View.ld_unit_zero (S := S256x768) offs2_zero, View.ld_unit_zero (S := S768x768) offs2_zero,
    View.ld_unit_zero (S := S1x768) offs2_zero]

/-- The output's one store covers its buffer. -/
theorem cover1_5 (p0 : Vec F S1x256x768 .f32) (y : S1x256x768.Idx) :
    ∃ pc ∈ ([⟨r1_q, p0⟩] : List (View.Piece (Elt F) S1x256x768 .f32)), y ∈ pc.1.set :=
  ⟨⟨r1_q, p0⟩, List.mem_singleton_self _, View.mem_set_unit_zero offs3_zero inb_S1x256x768_S1x256x768_0_0_0 y⟩

/-! ## The accumulator read whole is ONE function of its index -/

/-- The head a column of the accumulator belongs to, -/
def accHead (y : S256x768.Idx) : Fin 12 := ⟨(y 1).val / 64, by have := ValueIdx.idx2_lt1 y; omega⟩
/-- and the index within that head's 256×64 block. -/
def accLoc (y : S256x768.Idx) : S256x64.Idx := ValueIdx.ix2 (y 0) ⟨(y 1).val % 64, Nat.mod_lt _ (by decide)⟩

/-- The one function of the accumulator's index whose 256×64 column blocks the twelve stores write. -/
def accFn (x0 : Vec F S1x256x768 .bf16) (x1 x2 : Vec F S1x2048x768 .bf16) : Vec F S256x768 .f32 :=
  fun y => heads x0 x1 x2 (accHead y) (accLoc y)

/-- Head `k`'s block, stored at columns `64 k …`, is that function's block there. -/
theorem heads_block (x0 : Vec F S1x256x768 .bf16) (x1 x2 : Vec F S1x2048x768 .bf16) (k : ℕ) (hk : k < 12) (o : ℕ) (ho : o = 64 * k)
    (inb : ∀ a, (![0, o] : Fin 2 → ℕ) a + S256x64.size a ≤ S256x768.size a) (x : S256x64.Idx) :
    heads x0 x1 x2 ⟨k, hk⟩ x = accFn x0 x1 x2 ((Rect.unit (s := S256x768) ![0, o] S256x64.size inb).emb x) := by
  subst ho
  have h0 : (((Rect.unit (s := S256x768) ![0, 64 * k] S256x64.size inb).emb x) 0 : ℕ) = (x 0 : ℕ) := by
    rw [Rect.emb_apply]; show 0 + 1 * (x 0 : ℕ) = _; omega
  have h1 : (((Rect.unit (s := S256x768) ![0, 64 * k] S256x64.size inb).emb x) 1 : ℕ) = 64 * k + (x 1 : ℕ) := by
    rw [Rect.emb_apply]; show 64 * k + 1 * (x 1 : ℕ) = _; omega
  have hx1 : (x 1 : ℕ) < 64 := ValueIdx.idx2_lt1 x
  unfold accFn
  generalize (Rect.unit (s := S256x768) ![0, 64 * k] S256x64.size inb).emb x = y at h0 h1
  have ek : (⟨k, hk⟩ : Fin 12) = accHead y := Fin.ext (by show k = (y 1).val / 64; omega)
  have ex : x = accLoc y := by
    funext a
    match a with
    | ⟨0, _⟩ => exact Fin.ext h0.symm
    | ⟨1, _⟩ => exact Fin.ext (by show (x 1 : ℕ) = (y 1).val % 64; omega)
  exact congr (congrArg (heads x0 x1 x2) ek) ex

/-- Every one of the twelve pieces is a block of that function. -/
theorem pieces1_block (x0 : Vec F S1x256x768 .bf16) (x1 x2 : Vec F S1x2048x768 .bf16) :
    ∀ p ∈ pieces1 x0 x1 x2, ∀ x : p.1.shape.Idx, p.2 x = accFn x0 x1 x2 (p.1.emb x) := by
  intro p hp
  simp only [pieces1, List.mem_cons, List.not_mem_nil, or_false] at hp
  rcases hp with rfl | rfl | rfl | rfl | rfl | rfl | rfl | rfl | rfl | rfl | rfl | rfl
  · exact heads_block x0 x1 x2 11 (by decide) 704 (by decide) inb_S256x768_S256x64_0_704
  · exact heads_block x0 x1 x2 10 (by decide) 640 (by decide) inb_S256x768_S256x64_0_640
  · exact heads_block x0 x1 x2 9 (by decide) 576 (by decide) inb_S256x768_S256x64_0_576
  · exact heads_block x0 x1 x2 8 (by decide) 512 (by decide) inb_S256x768_S256x64_0_512
  · exact heads_block x0 x1 x2 7 (by decide) 448 (by decide) inb_S256x768_S256x64_0_448
  · exact heads_block x0 x1 x2 6 (by decide) 384 (by decide) inb_S256x768_S256x64_0_384
  · exact heads_block x0 x1 x2 5 (by decide) 320 (by decide) inb_S256x768_S256x64_0_320
  · exact heads_block x0 x1 x2 4 (by decide) 256 (by decide) inb_S256x768_S256x64_0_256
  · exact heads_block x0 x1 x2 3 (by decide) 192 (by decide) inb_S256x768_S256x64_0_192
  · exact heads_block x0 x1 x2 2 (by decide) 128 (by decide) inb_S256x768_S256x64_0_128
  · exact heads_block x0 x1 x2 1 (by decide) 64 (by decide) inb_S256x768_S256x64_0_64
  · exact heads_block x0 x1 x2 0 (by decide) 0 (by decide) inb_S256x768_S256x64_0_0

/-- The twelve column blocks tile the accumulator (checked by evaluation), so they cover it. -/
theorem cover1_acc (v0 : Vec F S1x256x768 .bf16) (v2 v4 : Vec F S1x2048x768 .bf16) (y : S256x768.Idx) :
    ∃ p ∈ pieces1 v0 v2 v4, y ∈ p.1.set :=
  View.cover_of_tiledL (pieces1 v0 v2 v4) S256x64.size (by sl_kernel_rfl) y

/-- Read whole, the accumulator holds head `h`'s block at columns `64 h … 64 h + 63`. -/
theorem acc1_apply (x0 : Vec F S1x256x768 .bf16) (x1 x2 : Vec F S1x2048x768 .bf16) (i : Fin 256) (h : Fin 12) (d : Fin 64) :
    acc1 (F := F) x0 x1 x2 (Idealize.ShloMosaic.ValueIdx.ix2 i ⟨64 * h.val + d.val, by omega⟩) = heads x0 x1 x2 h (Idealize.ShloMosaic.ValueIdx.ix2 i d) := by
  unfold acc1
  rw [View.ld_unit_zero (S := S1x256x768) offs3_zero, View.ld_unit_zero (S := S1x2048x768) offs3_zero,
    View.ld_unit_zero (S := S1x2048x768) offs3_zero]
  refine (View.canon_apply_of_pieces (accFn x0 x1 x2) (pieces1 x0 x1 x2) (pieces1_block x0 x1 x2) _ (cover1_acc x0 x1 x2 _)).trans ?_
  unfold accFn
  refine congr (congrArg (heads x0 x1 x2) (Fin.ext ?_)) ?_
  · show (64 * h.val + d.val) / 64 = h.val
    have := d.isLt; omega
  · funext a
    match a with
    | ⟨0, _⟩ => rfl
    | ⟨1, _⟩ => exact Fin.ext (by show (64 * h.val + d.val) % 64 = d.val; have := d.isLt; omega)

set_option maxHeartbeats 4000000 in
/-- The body on whole staging buffers, the five inputs' at read contents and the output's and the accumulator's at
    anything, runs to the continuation holding the inputs' as they were, the output's at `out1_5` of the inputs' and the
    accumulator's at something. -/
theorem sound_kernel1 (c : Dev nD) (E : Set ℕ) (i : grid1.Coords)
    (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S768x768 .bf16) (harg5 : arg5.IsWhole)
    (arg6 : Memref sig .tc .vmem S1x768 .f32) (harg6 : arg6.IsWhole) (arg7 : Memref sig .tc .vmem S1x256x768 .f32) (harg7 : arg7.IsWhole)
    (arg8 : Memref sig .tc .vmem S256x768 .f32) (harg8 : arg8.IsWhole)
    (x0 : Vec F S1x256x768 .bf16) (x1 x2 : Vec F S1x2048x768 .bf16) (x3 : Vec F S768x768 .bf16) (x4 : Vec F S1x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (out1_5 x0 x1 x2 x3 x4)
            ∗ (∃ d, owns (c : Thread nD τ) arg8 fullShare d)) -∗ K ⟨⟩))
      ⊢ wp frame (wpE (defs₀ (F := F)) Variants.none c none) E (cc1_attn_out_kernel i arg2 harg2 arg3 harg3 arg4 harg4 arg5 harg5 arg6 harg6 arg7 harg7 arg8 harg8) K := by
  simp only [cc1_attn_out_kernel_eq_skeleton]; unfold cc1_attn_out_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    sl_unfold_run_names
    unfold out1_5 acc1 pieces1
    rw [View.readCov_eq_canon']
    rfl
  iexists _, _; isplitr
  swap; · iexact H6
  ipureintro; rfl

/-- info: 'Cert.Kernel.Hand.sound_kernel1' depends on axioms: [propext, Classical.choice, Quot.sound] -/
#guard_msgs in #print axioms sound_kernel1
/-- info: 'Cert.Kernel.Hand.acc1_apply' depends on axioms: [propext, Classical.choice, Quot.sound] -/
#guard_msgs in #print axioms acc1_apply

end Cert.Kernel.Hand

end
-- ==== Proof.KBRegion1.lean ====
/-
  The second kernel region at the buffer contents `V` it is entered from.  Its first three windows read one array
  (rows of queries, and the whole key and value thirds of a batch); the accumulator it fills head by head is a
  scoped buffer of its own, taken from the region's invariant at any contents and given back at any contents.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Tactic
import proofs.«140084_j52699248722576_2_alg».proof.Proof.KBBody1
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- After the body at point `t`: each input's buffer at its block, the output's at the body's result; the array the
    first three windows share is held at three shares that make the full one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The accumulator held whole at some contents, as its points-to or through its whole memref: the same. -/
theorem scratch_owned (c : Dev nD) :
    (iprop(∃ f : Buf (Elt F) ((c : Thread nD τ).loc cc1_scratch0), ((c : Thread nD τ).loc cc1_scratch0) ↦{fullShare} f) : sProp 𝕄)
      = iprop(∃ d, owns (c : Thread nD τ) (Memref.whole cc1_scratch0) fullShare d) := by
  simp only [owns_whole]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5]
  unfold Pipeline.ΦA
  rw [scopedRest1_eq, scratch_owned]
  iintro ⟨⟨⟨Hs0, Hs1, Hs2, Hs3, Hs4, Hs5, Hs6, Hscr⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr]; · iexact Hscr
  iintro ⟨H0, H1, H2, H3, H4, H5, Hscr⟩
  isplitl [Hs0 Hs1 Hs2 Hs3 Hs4 Hs5 Hs6 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hscr
    · iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBVals.lean ====
/-
  The buffer contents at the boundaries of the two kernel regions, from the launch memory `m`: the first region is
  entered from what the host operations before it leave; it leaves in its result buffer the fold of its write-backs;
  the second region is entered from that, and leaves in the program's result buffer the fold of its write-backs.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Tactic
import proofs.«140084_j52699248722576_2_alg».proof.Proof.KBRegion0
import proofs.«140084_j52699248722576_2_alg».proof.Proof.KBRegion1
import proofs.«140084_j52699248722576_2_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the first region is entered from: the launch contents after the host operations before it. -/
abbrev Ve0 (c : Dev nD) (b : Ref sig .tc) : Buf (Elt F) ((c : Thread nD τ).loc b) := Gen.V1 m c b

/-- What the first region leaves in its result buffer: its write-backs folded. -/
def qkvArr (c : Dev nD) : Buf (Elt F) ((c : Thread nD τ).loc main_v5) := (dat0 (Ve0 m) c).arrAt 4 cfg0.N

/-- The contents the regions leave, as far as the second region's entry needs them: the first region's result. -/
def outsA : Gen.Outs (F := F) := fun _ r c =>
  if h : r = main_v5 then h ▸ qkvArr m c else Gen.V1 m c r

/-- What the second region is entered from. -/
abbrev Ve1 (c : Dev nD) (b : Ref sig .tc) : Buf (Elt F) ((c : Thread nD τ).loc b) := Gen.V2 m (outsA m) c b

/-- What the second region leaves in the program's result buffer: its write-backs folded. -/
def resArr (c : Dev nD) : Buf (Elt F) ((c : Thread nD τ).loc main_v6) := (dat1 (Ve1 m) c).arrAt 5 cfg1.N

/-- The contents the regions leave. -/
def outs : Gen.Outs (F := F) := fun _ r c =>
  if h : r = main_v5 then h ▸ qkvArr m c else if h' : r = main_v6 then h' ▸ resArr m c else Gen.V1 m c r

theorem outsA_v5 (c : Dev nD) : outsA m 2 main_v5 c = qkvArr m c := by unfold outsA; rw [dif_pos rfl]
theorem outs_v5 (c : Dev nD) : outs m 2 main_v5 c = qkvArr m c := by unfold outs; rw [dif_pos rfl]
theorem outs_v6 (c : Dev nD) : outs m 3 main_v6 c = resArr m c := by
  unfold outs; rw [dif_neg (by decide), dif_pos rfl]

/-- The second region's entry contents do not depend on what it leaves itself. -/
theorem V2_outs (c : Dev nD) : Gen.V2 m (outs m) c = Gen.V2 m (outsA m) c := by
  simp only [Gen.V2, outs_v5, outsA_v5]

/-- The second region's entry contents at the first region's result buffer, and off it. -/
theorem Ve1_v5 (c : Dev nD) : Ve1 m c main_v5 = qkvArr m c := by
  simp only [Ve1, Gen.V2, outsA_v5, Function.update_self]
theorem Ve1_of (c : Dev nD) (r : Ref sig .tc) (h : r ∉ ([main_v5] : List (Ref sig .tc))) : Ve1 m c r = Ve0 m c r :=
  Gen.V2_of m (outsA m) c r h

end Cert.Kernel.Hand

end
-- ==== Proof.KBShare.lean ====
/-
  The second region's arrays, dealt and gathered.  Its first three windows read one array, so at the region's entry
  that buffer's full points-to is dealt in three shares (the left half, and the two halves of the right half), and at
  the exit the three shares, which hold the same contents, are gathered back into the full points-to.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Tactic
import proofs.«140084_j52699248722576_2_alg».proof.Proof.KBRegion1
import Idealize.ShloMosaic.Rules.PointsTo

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

/-- The arrays of the second region, window by window: the shared array three times, each at its share. -/
theorem arrays1_eq (c : Dev nD) (F' : (w : Fin cfg1.W) → Buf (Elt F) ((cfg1.win w).arr.view.loc (c.tc : Thread nD τ))) :
    ((dat1 V c).arrays F' : sProp 𝕄) = iprop(
      (((c : Thread nD τ).loc main_v5) ↦{fullShare.left} F' 0) ∗ (((c : Thread nD τ).loc main_v5) ↦{fullShare.right.left} F' 1)
      ∗ (((c : Thread nD τ).loc main_v5) ↦{fullShare.right.right} F' 2) ∗ (((c : Thread nD τ).loc main_v1) ↦{fullShare} F' 3)
      ∗ (((c : Thread nD τ).loc main_v4) ↦{fullShare} F' 4) ∗ (((c : Thread nD τ).loc main_v6) ↦{fullShare} F' 5)) := by
  have h1 : ((dat1 V c).arrays F' : sProp 𝕄)
      = bigSep Finset.univ fun w => (((c : Thread nD τ).loc (Pipeline.arrRef spec1 w)) ↦{(dat1 V c).share w} F' w : sProp 𝕄) := by
    unfold Dat.arrays
    exact bigSep_congr fun w _ => by rw [(arr_whole1 w).set_eq_univ]
  rw [h1, bigSep_W1]
  rfl

/-- The distinct buffers behind the second region's windows. -/
theorem arrBufs1_eq (c : Dev nD) (V' : (b : Ref sig .tc) → Buf (Elt F) ((c : Thread nD τ).loc b)) :
    (Pipeline.arrBufs spec1 c V' : sProp 𝕄) = iprop(
      (((c : Thread nD τ).loc main_v5) ↦{fullShare} V' main_v5) ∗ (((c : Thread nD τ).loc main_v1) ↦{fullShare} V' main_v1)
      ∗ (((c : Thread nD τ).loc main_v4) ↦{fullShare} V' main_v4) ∗ (((c : Thread nD τ).loc main_v6) ↦{fullShare} V' main_v6)) := by
  unfold Pipeline.arrBufs
  have himg : Finset.univ.image (Pipeline.arrRef spec1) = insert main_v5 (insert main_v1 (insert main_v4 {main_v6})) := by decide
  rw [himg, bigSep_insert (by decide), bigSep_insert (by decide), bigSep_insert (by decide), bigSep_singleton]
  rfl

/-- A full points-to is three points-tos at the left half and the halves of the right half. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ (ℓ ↦{fullShare.right} f)) :=
    pointsTo_share (PosShare.mem_left_op_right fullShare)
  have h2 : (ℓ ↦{fullShare.right} f : sProp 𝕄) ⊣⊢ iprop((ℓ ↦{fullShare.right.left} f) ∗ (ℓ ↦{fullShare.right.right} f)) :=
    pointsTo_share (PosShare.mem_left_op_right fullShare.right)
  exact ⟨h1.1.trans (sep_mono .rfl h2.1), (sep_mono .rfl h2.2).trans h1.2⟩

/-- Entry and exit: the buffers at contents `V'` are the arrays at any contents that read `V'` window by window. -/
theorem arrays1_iff (c : Dev nD) (V' : (b : Ref sig .tc) → Buf (Elt F) ((c : Thread nD τ).loc b))
    (F' : (w : Fin cfg1.W) → Buf (Elt F) ((cfg1.win w).arr.view.loc (c.tc : Thread nD τ)))
    (hF : ∀ w, F' w = V' (Pipeline.arrRef spec1 w)) :
    (Pipeline.arrBufs spec1 c V' : sProp 𝕄) ⊣⊢ (dat1 V c).arrays F' := by
  rw [arrays1_eq, arrBufs1_eq, hF 0, hF 1, hF 2, hF 3, hF 4, hF 5]
  have h3 := thirds (F := F) (ℓ := (c : Thread nD τ).loc main_v5) (V' main_v5)
  constructor
  · iintro ⟨H5, H1, H4, H6⟩
    ihave H := h3.1 $$ H5
    icases H with ⟨Ha, Hb, Hc⟩
    isplitl [Ha]; · iexact Ha
    isplitl [Hb]; · iexact Hb
    isplitl [Hc]; · iexact Hc
    isplitl [H1]; · iexact H1
    isplitl [H4]; · iexact H4
    iexact H6
  · iintro ⟨Ha, Hb, Hc, H1, H4, H6⟩
    isplitl [Ha Hb Hc]
    · iapply h3.2
      isplitl [Ha]; · iexact Ha
      isplitl [Hb]; · iexact Hb
      iexact Hc
    isplitl [H1]; · iexact H1
    isplitl [H4]; · iexact H4
    iexact H6

end Shares

end Cert.Kernel.Hand

end
-- ==== Proof.KBRun.lean ====
/-
  The whole run of the program: the host operations, then the two kernel regions, as the segments of the launch
  theorem for several regions.  Each region is entered from the thread state "every unscoped buffer at the
  boundary's contents, the generator register at some state, nothing owed" and left at the same with the region's
  result buffer at the fold of its write-backs.  The second region's three windows on one array take that buffer
  in three shares at entry and give them back at exit.  The run ends with the result buffer at what the second
  region left and every argument as launched.
-/
import proofs.«140084_j52699248722576_2_alg».proof.Proof.Gen.Kernel.Skeleton
import proofs.«140084_j52699248722576_2_alg».proof.Proof.Gen.Kernel.Launch
import proofs.«140084_j52699248722576_2_alg».proof.Proof.Gen.Kernel.Points
import proofs.«140084_j52699248722576_2_alg».proof.Proof.KBHeads
import Idealize.ShloMosaic.Lib.Pipeline.FrameBody
import Idealize.ShloMosaic.Lib.Tactic
import proofs.«140084_j52699248722576_2_alg».proof.Proof.KBVals
import proofs.«140084_j52699248722576_2_alg».proof.Proof.KBShare
import proofs.«140084_j52699248722576_2_alg».proof.Proof.KBFrameCond
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## The first region's exit contents -/

theorem hF0 (c : Dev nD) (w : Fin cfg0.W) :
    (pdats m 0 c).arrAt w cfg0.N = Gen.V2 m (outs m) c (Pipeline.arrRef spec0 w) := by
  match w with
  | ⟨0, _⟩ => exact ((dat0 (Ve0 m) c).arrAt_in 0 rfl _).trans (Gen.V2_of m (outs m) c main_arg0 (by decide)).symm
  | ⟨1, _⟩ => exact ((dat0 (Ve0 m) c).arrAt_in 1 rfl _).trans (Gen.V2_of m (outs m) c main_v2 (by decide)).symm
  | ⟨2, _⟩ => exact ((dat0 (Ve0 m) c).arrAt_in 2 rfl _).trans (Gen.V2_of m (outs m) c main_v3 (by decide)).symm
  | ⟨3, _⟩ => exact ((dat0 (Ve0 m) c).arrAt_in 3 rfl _).trans (Gen.V2_of m (outs m) c main_v0 (by decide)).symm
  | ⟨4, _⟩ =>
    show qkvArr m c = _
    simp only [Gen.V2, outs_v5, Function.update_self]

theorem hrest0 (c : Dev nD) : ∀ b, b ∉ Finset.univ.image (Pipeline.arrRef spec0) → Gen.V2 m (outs m) c b = Ve0 m c b :=
  fun b hb => Gen.V2_of m (outs m) c b (by
    intro h
    have : b = main_v5 := by simpa using h
    exact hb (Finset.mem_image.mpr ⟨4, Finset.mem_univ _, this.symm⟩))

/-! ## The second region's exit contents -/

theorem hF1 (c : Dev nD) (w : Fin cfg1.W) :
    (pdats m 1 c).arrAt w cfg1.N = Gen.V3 m (outs m) c (Pipeline.arrRef spec1 w) := by
  have e2 : ∀ r : Ref sig .tc, Gen.V2 m (outs m) c r = Ve1 m c r := fun r => by rw [V2_outs]
  match w with
  | ⟨0, _⟩ => exact ((dat1 (Ve1 m) c).arrAt_in 0 rfl _).trans ((Gen.V3_of m (outs m) c main_v5 (by decide)).trans (e2 _)).symm
  | ⟨1, _⟩ => exact ((dat1 (Ve1 m) c).arrAt_in 1 rfl _).trans ((Gen.V3_of m (outs m) c main_v5 (by decide)).trans (e2 _)).symm
  | ⟨2, _⟩ => exact ((dat1 (Ve1 m) c).arrAt_in 2 rfl _).trans ((Gen.V3_of m (outs m) c main_v5 (by decide)).trans (e2 _)).symm
  | ⟨3, _⟩ => exact ((dat1 (Ve1 m) c).arrAt_in 3 rfl _).trans ((Gen.V3_of m (outs m) c main_v1 (by decide)).trans (e2 _)).symm
  | ⟨4, _⟩ => exact ((dat1 (Ve1 m) c).arrAt_in 4 rfl _).trans ((Gen.V3_of m (outs m) c main_v4 (by decide)).trans (e2 _)).symm
  | ⟨5, _⟩ =>
    show resArr m c = _
    simp only [Gen.V3, outs_v6, Function.update_self]

theorem hrest1 (c : Dev nD) : ∀ b, b ∉ Finset.univ.image (Pipeline.arrRef spec1) → Gen.V3 m (outs m) c b = Ve1 m c b :=
  fun b hb => (Gen.V3_of m (outs m) c b (by
    intro h
    have : b = main_v6 := by simpa using h
    exact hb (Finset.mem_image.mpr ⟨5, Finset.mem_univ _, this.symm⟩))).trans (by rw [V2_outs])

/-! ## The regions as segments -/

set_option backward.isDefEq.respectTransparency.types false in
/-- The first region: its arrays split out of the unscoped buffers and put back at the exit contents; the generator
    register into the region's invariant and out; nothing owed; no semaphore of the kernel's own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: the buffer its first three windows share is dealt in three shares at entry and gathered at
    exit; otherwise as the first. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V2 m (outsA m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit : (unscopedBufs c (Ve1 m c) : sProp 𝕄)
        ⊢ iprop((pdats m 1 c).arrays ((pdats m 1 c).arrAt · 0) ∗ Pipeline.unscopedRest spec1 c (Ve1 m c)) := by
      rw [Pipeline.unscopedBufs_split₀ (Pipeline.pin (pcfgs (F := F)) Gen.adm) 1 winFacts₀1.arr_unscoped c (Ve1 m c)]
      exact sep_mono (arrays1_iff (Ve1 m) c (Ve1 m c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve1 m c))
        ⊢ (unscopedBufs c (fun b => Gen.V3 m (outs m) c b) : sProp 𝕄) := by
      rw [Pipeline.unscopedBufs_split₀ (Pipeline.pin (pcfgs (F := F)) Gen.adm) 1 winFacts₀1.arr_unscoped c (fun b => Gen.V3 m (outs m) c b)]
      refine sep_mono (arrays1_iff (Ve1 m) c (fun b => Gen.V3 m (outs m) c b) _ (hF1 m c)).2 (BIBase.Entails.of_eq ?_)
      unfold Pipeline.unscopedRest
      exact bigSep_congr fun b hb => by rw [← hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates without a fault, the result buffer at what
    the second region left and every argument as launched. -/
theorem run_res : θ_run defs (onTc (τ := τ) (main (F := F))) ⟨m, fun _ => 0, ρ⟩ (fun r => ∀ c : Dev nD,
      r.2.mem ((c.tc : Thread nD τ).loc main_v6) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := GenP.frame_cond_res (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl)
    (reg1 m) (fun c => by rw [V2_outs]; exact .rfl) (fun _ => .rfl)
  refine (θ_run defs _ _).mono (fun r hr c => ?_) h
  have := hr c
  rw [outs_v6] at this
  exact this

end Cert.Kernel.Hand

end
-- ==== Proof.KIHeads.lean ====
/-
  The twelve 64-column pieces the second kernel's body stores into its 256×768 accumulator, one per head, as
  functions of the three blocks it loads (queries, keys, values): piece `h` is the head's weighted sum of value rows.
-/
import proofs.«140084_j52699248722576_2_alg».proof.Proof.Gen.KernelIdeal.Skeleton

noncomputable section

namespace Cert.KernelIdeal.Hand

open Cert.KernelIdeal Cert.KernelIdeal.Gen Idealize.ShloMosaic

variable {F : FTy → Type} [FloatOps F]

/-- What the body stores at columns `64 h … 64 h + 63` of the accumulator. -/
def heads (v0 : Vec F S1x256x768 .bf16) (v2 v4 : Vec F S1x2048x768 .bf16) : Fin 12 → FVec F S256x64 .f32
  | ⟨0, _⟩ => k1_pay5 v0 v2 v4
  | ⟨1, _⟩ => k1_pay8 (k1_pay6 v4) (k1_pay7 v0 v2)
  | ⟨2, _⟩ => k1_pay9 (k1_pay2 v0) (k1_pay3 v2) (k1_pay4 v4)
  | ⟨3, _⟩ => k1_pay12 (k1_pay10 (k1_pay4 v4)) (k1_pay11 (k1_pay2 v0) (k1_pay3 v2))
  | ⟨4, _⟩ => k1_pay13 (k1_pay2 v0) (k1_pay3 v2) (k1_pay4 v4)
  | ⟨5, _⟩ => k1_pay15 (k1_pay14 (k1_pay2 v0) (k1_pay3 v2) (k1_pay4 v4))
  | ⟨6, _⟩ => k1_pay16 (k1_pay2 v0) (k1_pay3 v2) (k1_pay4 v4)
  | ⟨7, _⟩ => k1_pay17 (k1_pay2 v0) (k1_pay3 v2) (k1_pay4 v4)
  | ⟨8, _⟩ => k1_pay18 (k1_pay2 v0) (k1_pay3 v2) (k1_pay4 v4)
  | ⟨9, _⟩ => k1_pay19 (k1_pay2 v0) (k1_pay3 v2) (k1_pay4 v4)
  | ⟨10, _⟩ => k1_pay23 (k1_pay20 (k1_pay2 v0)) (k1_pay21 (k1_pay3 v2)) (k1_pay22 (k1_pay4 v4))
  | ⟨11, _⟩ => k1_pay24 (k1_pay2 v0) (k1_pay3 v2) (k1_pay4 v4)

end Cert.KernelIdeal.Hand

end
-- ==== Proof.KIBody0.lean ====
/-
  The first kernel's body (layer normalisation of a 512×768 block, then its product with the 2304×768 weight) run on
  whole staging buffers: it loads its three inputs and the weight through whole-buffer rectangles, loads the output
  buffer once (the value is not used) and stores the payload `k0_pay1` of the four loaded blocks through the
  whole-buffer rectangle. So the output buffer ends at that payload of the inputs' contents (`out0_4_eq`), whatever it
  held, and the inputs are left as they were (`sound_kernel0`). Generic in the float instance.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first body's accesses: every load and the one store go through the whole buffer -/

abbrev r0_x0 : Rect S1x512x768 := Rect.unit (s := S1x512x768) ![0, 0, 0] S1x512x768.size inb_S1x512x768_S1x512x768_0_0_0
abbrev r0_x1 : Rect S1x768 := Rect.unit (s := S1x768) ![0, 0] S1x768.size inb_S1x768_S1x768_0_0
abbrev r0_x3 : Rect S2304x768 := Rect.unit (s := S2304x768) ![0, 0] S2304x768.size inb_S2304x768_S2304x768_0_0
abbrev r0_out : Rect S1x512x2304 := Rect.unit (s := S1x512x2304) ![0, 0, 0] S1x512x2304.size inb_S1x512x2304_S1x512x2304_0_0_0

/-- The offsets of a whole-buffer access are all zero, however the zeros are spelt. -/
theorem zero3 : (![0, 0, 0] : Fin 3 → ℕ) = fun _ => 0 := by funext a; fin_cases a <;> rfl
theorem zero2 : (![0, 0] : Fin 2 → ℕ) = fun _ => 0 := by funext a; fin_cases a <;> rfl

/-- What the body leaves in the output buffer: its one store, of the payload of the four blocks it loads. -/
def out0_4 (x0 : Vec F S1x512x768 .f32) (x1 x2 : Vec F S1x768 .f32) (x3 : Vec F S2304x768 .bf16) : Vec F S1x512x2304 .bf16 :=
  View.canon [⟨r0_out, k0_pay1 (View.ld x0 r0_x0) (View.ld x1 r0_x1) (View.ld x2 r0_x1) (View.ld x3 r0_x3)⟩]

/-- Through whole-buffer rectangles a load reads the contents and the one store leaves its payload. -/
theorem out0_4_eq (x0 : Vec F S1x512x768 .f32) (x1 x2 : Vec F S1x768 .f32) (x3 : Vec F S2304x768 .bf16) :
    out0_4 (F := F) x0 x1 x2 x3 = k0_pay1 x0 x1 x2 x3 := by
  unfold out0_4
  rw [View.canon_unit_zero zero3, View.ld_unit_zero (S := S1x512x768) zero3, View.ld_unit_zero (S := S1x768) zero2,
    View.ld_unit_zero (S := S1x768) zero2, View.ld_unit_zero (S := S2304x768) zero2]

/-- The store covers the buffer. -/
theorem cover0_4 (p0 : Vec F S1x512x2304 .bf16) (y : S1x512x2304.Idx) :
    ∃ pc ∈ ([⟨r0_out, p0⟩] : List (View.Piece (Elt F) S1x512x2304 .bf16)), y ∈ pc.1.set :=
  ⟨⟨r0_out, p0⟩, List.mem_singleton_self _, View.mem_set_unit_zero zero3 inb_S1x512x2304_S1x512x2304_0_0_0 y⟩

set_option maxHeartbeats 1000000 in
/-- The body on whole staging buffers, the inputs' at read contents and the output's at anything, runs to the
    continuation holding the inputs' as they were and the output's at `out0_4` of the inputs'. -/
theorem sound_kernel0 (c : Dev nD) (E : Set ℕ) (i : grid0.Coords)
    (arg2 : Memref sig .tc .vmem S1x512x768 .f32) (harg2 : arg2.IsWhole) (arg3 : Memref sig .tc .vmem S1x768 .f32) (harg3 : arg3.IsWhole)
    (arg4 : Memref sig .tc .vmem S1x768 .f32) (harg4 : arg4.IsWhole) (arg5 : Memref sig .tc .vmem S2304x768 .bf16) (harg5 : arg5.IsWhole)
    (arg6 : Memref sig .tc .vmem S1x512x2304 .bf16) (harg6 : arg6.IsWhole)
    (x0 : Vec F S1x512x768 .f32) (x1 x2 : Vec F S1x768 .f32) (x3 : Vec F S2304x768 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0_ln_qkv_kernel i arg2 harg2 arg3 harg3 arg4 harg4 arg5 harg5 arg6 harg6) K := by
  simp only [cc0_ln_qkv_kernel_eq_skeleton]; unfold cc0_ln_qkv_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- info: 'Cert.KernelIdeal.Hand.sound_kernel0' depends on axioms: [propext, Classical.choice, Quot.sound] -/
#guard_msgs in #print axioms sound_kernel0

end Cert.KernelIdeal.Hand

end
-- ==== Proof.KIRegion0.lean ====
/-
  The two kernel regions of the program, each at the buffer contents `V` it is entered from: the block of each
  window at a grid point, what the body leaves in each window's staging buffer at a point (an input's block stays;
  the output's is the body's result on the input blocks), and the body obligation at every point.
  In the second region three input windows read ONE array (its query, key and value thirds), so that array is held
  at three shares that together make the full share.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Tactic
import proofs.«140084_j52699248722576_2_alg».proof.Proof.KIBody0
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- After the body at point `t`: each input's buffer at its block, the output's at the body's result. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIBody1.lean ====
/-
  The second kernel's body (attention of a 256-row query block against 2048 keys and values, head by head, then the
  output projection) run on whole staging buffers. It loads the query, key and value blocks whole; for each of the
  twelve heads `h` it loads columns `64 h … 64 h + 63` of the 256×768 accumulator (the value is not used) and stores
  there the head's 256×64 weighted sum of value rows (`heads … h`); then it loads the accumulator whole, loads the
  projection weight and the bias whole, loads the output buffer once (not used) and stores the payload `k1_pay1` of the
  accumulator (rounded by `k1_pay25`), the weight and the bias through the whole-buffer rectangle.

  The twelve stores are the twelve column blocks of ONE function of the accumulator's index (`accFn`: column `j`
  belongs to head `j / 64`, at column `j % 64` of its block), and they tile the accumulator; so read whole it holds
  head `h`'s block at columns `64 h + d` (`acc1_apply`), whatever it held before. The output buffer ends at
  `k1_pay1 (k1_pay25 (acc1 …)) …` of the inputs' contents (`out1_5_eq`); the inputs are left as they were and the
  accumulator at something (`sound_kernel1`). Generic in the float instance.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second body's accesses -/

abbrev r1_q : Rect S1x256x768 := Rect.unit (s := S1x256x768) ![0, 0, 0] S1x256x768.size inb_S1x256x768_S1x256x768_0_0_0
abbrev r1_kv : Rect S1x2048x768 := Rect.unit (s := S1x2048x768) ![0, 0, 0] S1x2048x768.size inb_S1x2048x768_S1x2048x768_0_0_0
abbrev r1_w : Rect S768x768 := Rect.unit (s := S768x768) ![0, 0] S768x768.size inb_S768x768_S768x768_0_0
abbrev r1_b : Rect S1x768 := Rect.unit (s := S1x768) ![0, 0] S1x768.size inb_S1x768_S1x768_0_0
abbrev r1_acc : Rect S256x768 := Rect.unit (s := S256x768) ![0, 0] S256x768.size inb_S256x768_S256x768_0_0
abbrev r1_h0 : Rect S256x768 := Rect.unit (s := S256x768) ![0, 0] S256x64.size inb_S256x768_S256x64_0_0
abbrev r1_h1 : Rect S256x768 := Rect.unit (s := S256x768) ![0, 64] S256x64.size inb_S256x768_S256x64_0_64
abbrev r1_h2 : Rect S256x768 := Rect.unit (s := S256x768) ![0, 128] S256x64.size inb_S256x768_S256x64_0_128
abbrev r1_h3 : Rect S256x768 := Rect.unit (s := S256x768) ![0, 192] S256x64.size inb_S256x768_S256x64_0_192
abbrev r1_h4 : Rect S256x768 := Rect.unit (s := S256x768) ![0, 256] S256x64.size inb_S256x768_S256x64_0_256
abbrev r1_h5 : Rect S256x768 := Rect.unit (s := S256x768) ![0, 320] S256x64.size inb_S256x768_S256x64_0_320
abbrev r1_h6 : Rect S256x768 := Rect.unit (s := S256x768) ![0, 384] S256x64.size inb_S256x768_S256x64_0_384
abbrev r1_h7 : Rect S256x768 := Rect.unit (s := S256x768) ![0, 448] S256x64.size inb_S256x768_S256x64_0_448
abbrev r1_h8 : Rect S256x768 := Rect.unit (s := S256x768) ![0, 512] S256x64.size inb_S256x768_S256x64_0_512
abbrev r1_h9 : Rect S256x768 := Rect.unit (s := S256x768) ![0, 576] S256x64.size inb_S256x768_S256x64_0_576
abbrev r1_h10 : Rect S256x768 := Rect.unit (s := S256x768) ![0, 640] S256x64.size inb_S256x768_S256x64_0_640
abbrev r1_h11 : Rect S256x768 := Rect.unit (s := S256x768) ![0, 704] S256x64.size inb_S256x768_S256x64_0_704

/-- The offsets of a whole-buffer access are all zero, however the zeros are spelt. -/
theorem offs3_zero : (![0, 0, 0] : Fin 3 → ℕ) = fun _ => 0 := by funext a; fin_cases a <;> rfl
theorem offs2_zero : (![0, 0] : Fin 2 → ℕ) = fun _ => 0 := by funext a; fin_cases a <;> rfl

/-- The accumulator's twelve stores as pieces, LAST FIRST: head `h`'s 256×64 block at columns `64 h … 64 h + 63`,
    over the three loaded blocks. -/
def pieces1 (v0 : Vec F S1x256x768 .bf16) (v2 v4 : Vec F S1x2048x768 .bf16) : List (View.Piece (Elt F) S256x768 .f32) :=
  [⟨r1_h11, heads v0 v2 v4 ⟨11, by decide⟩⟩,
   ⟨r1_h10, heads v0 v2 v4 ⟨10, by decide⟩⟩,
   ⟨r1_h9, heads v0 v2 v4 ⟨9, by decide⟩⟩,
   ⟨r1_h8, heads v0 v2 v4 ⟨8, by decide⟩⟩,
   ⟨r1_h7, heads v0 v2 v4 ⟨7, by decide⟩⟩,
   ⟨r1_h6, heads v0 v2 v4 ⟨6, by decide⟩⟩,
   ⟨r1_h5, heads v0 v2 v4 ⟨5, by decide⟩⟩,
   ⟨r1_h4, heads v0 v2 v4 ⟨4, by decide⟩⟩,
   ⟨r1_h3, heads v0 v2 v4 ⟨3, by decide⟩⟩,
   ⟨r1_h2, heads v0 v2 v4 ⟨2, by decide⟩⟩,
   ⟨r1_h1, heads v0 v2 v4 ⟨1, by decide⟩⟩,
   ⟨r1_h0, heads v0 v2 v4 ⟨0, by decide⟩⟩]

/-- What the accumulator holds when it is read whole: the canon of its twelve stores over the loaded blocks. -/
def acc1 (x0 : Vec F S1x256x768 .bf16) (x1 x2 : Vec F S1x2048x768 .bf16) : Vec F S256x768 .f32 :=
  View.canon (pieces1 (View.ld x0 r1_q) (View.ld x1 r1_kv) (View.ld x2 r1_kv))

/-- What the body leaves in the output buffer: its one store, of the projection of the accumulator read whole. -/
def out1_5 (x0 : Vec F S1x256x768 .bf16) (x1 x2 : Vec F S1x2048x768 .bf16) (x3 : Vec F S768x768 .bf16) (x4 : Vec F S1x768 .f32) : Vec F S1x256x768 .f32 :=
  View.canon [⟨r1_q, k1_pay1 (k1_pay25 (View.ld (acc1 x0 x1 x2) r1_acc)) (View.ld x3 r1_w) (View.ld x4 r1_b)⟩]

theorem out1_5_eq (x0 : Vec F S1x256x768 .bf16) (x1 x2 : Vec F S1x2048x768 .bf16) (x3 : Vec F S768x768 .bf16) (x4 : Vec F S1x768 .f32) :
    out1_5 (F := F) x0 x1 x2 x3 x4 = k1_pay1 (k1_pay25 (acc1 x0 x1 x2)) x3 x4 := by
  unfold out1_5
  rw [View.canon_unit_zero offs3_zero, View.ld_unit_zero (S := S256x768) offs2_zero, View.ld_unit_zero (S := S768x768) offs2_zero,
    View.ld_unit_zero (S := S1x768) offs2_zero]

/-- The output's one store covers its buffer. -/
theorem cover1_5 (p0 : Vec F S1x256x768 .f32) (y : S1x256x768.Idx) :
    ∃ pc ∈ ([⟨r1_q, p0⟩] : List (View.Piece (Elt F) S1x256x768 .f32)), y ∈ pc.1.set :=
  ⟨⟨r1_q, p0⟩, List.mem_singleton_self _, View.mem_set_unit_zero offs3_zero inb_S1x256x768_S1x256x768_0_0_0 y⟩

/-! ## The accumulator read whole is ONE function of its index -/

/-- The head a column of the accumulator belongs to, -/
def accHead (y : S256x768.Idx) : Fin 12 := ⟨(y 1).val / 64, by have := ValueIdx.idx2_lt1 y; omega⟩
/-- and the index within that head's 256×64 block. -/
def accLoc (y : S256x768.Idx) : S256x64.Idx := ValueIdx.ix2 (y 0) ⟨(y 1).val % 64, Nat.mod_lt _ (by decide)⟩

/-- The one function of the accumulator's index whose 256×64 column blocks the twelve stores write. -/
def accFn (x0 : Vec F S1x256x768 .bf16) (x1 x2 : Vec F S1x2048x768 .bf16) : Vec F S256x768 .f32 :=
  fun y => heads x0 x1 x2 (accHead y) (accLoc y)

/-- Head `k`'s block, stored at columns `64 k …`, is that function's block there. -/
theorem heads_block (x0 : Vec F S1x256x768 .bf16) (x1 x2 : Vec F S1x2048x768 .bf16) (k : ℕ) (hk : k < 12) (o : ℕ) (ho : o = 64 * k)
    (inb : ∀ a, (![0, o] : Fin 2 → ℕ) a + S256x64.size a ≤ S256x768.size a) (x : S256x64.Idx) :
    heads x0 x1 x2 ⟨k, hk⟩ x = accFn x0 x1 x2 ((Rect.unit (s := S256x768) ![0, o] S256x64.size inb).emb x) := by
  subst ho
  have h0 : (((Rect.unit (s := S256x768) ![0, 64 * k] S256x64.size inb).emb x) 0 : ℕ) = (x 0 : ℕ) := by
    rw [Rect.emb_apply]; show 0 + 1 * (x 0 : ℕ) = _; omega
  have h1 : (((Rect.unit (s := S256x768) ![0, 64 * k] S256x64.size inb).emb x) 1 : ℕ) = 64 * k + (x 1 : ℕ) := by
    rw [Rect.emb_apply]; show 64 * k + 1 * (x 1 : ℕ) = _; omega
  have hx1 : (x 1 : ℕ) < 64 := ValueIdx.idx2_lt1 x
  unfold accFn
  generalize (Rect.unit (s := S256x768) ![0, 64 * k] S256x64.size inb).emb x = y at h0 h1
  have ek : (⟨k, hk⟩ : Fin 12) = accHead y := Fin.ext (by show k = (y 1).val / 64; omega)
  have ex : x = accLoc y := by
    funext a
    match a with
    | ⟨0, _⟩ => exact Fin.ext h0.symm
    | ⟨1, _⟩ => exact Fin.ext (by show (x 1 : ℕ) = (y 1).val % 64; omega)
  exact congr (congrArg (heads x0 x1 x2) ek) ex

/-- Every one of the twelve pieces is a block of that function. -/
theorem pieces1_block (x0 : Vec F S1x256x768 .bf16) (x1 x2 : Vec F S1x2048x768 .bf16) :
    ∀ p ∈ pieces1 x0 x1 x2, ∀ x : p.1.shape.Idx, p.2 x = accFn x0 x1 x2 (p.1.emb x) := by
  intro p hp
  simp only [pieces1, List.mem_cons, List.not_mem_nil, or_false] at hp
  rcases hp with rfl | rfl | rfl | rfl | rfl | rfl | rfl | rfl | rfl | rfl | rfl | rfl
  · exact heads_block x0 x1 x2 11 (by decide) 704 (by decide) inb_S256x768_S256x64_0_704
  · exact heads_block x0 x1 x2 10 (by decide) 640 (by decide) inb_S256x768_S256x64_0_640
  · exact heads_block x0 x1 x2 9 (by decide) 576 (by decide) inb_S256x768_S256x64_0_576
  · exact heads_block x0 x1 x2 8 (by decide) 512 (by decide) inb_S256x768_S256x64_0_512
  · exact heads_block x0 x1 x2 7 (by decide) 448 (by decide) inb_S256x768_S256x64_0_448
  · exact heads_block x0 x1 x2 6 (by decide) 384 (by decide) inb_S256x768_S256x64_0_384
  · exact heads_block x0 x1 x2 5 (by decide) 320 (by decide) inb_S256x768_S256x64_0_320
  · exact heads_block x0 x1 x2 4 (by decide) 256 (by decide) inb_S256x768_S256x64_0_256
  · exact heads_block x0 x1 x2 3 (by decide) 192 (by decide) inb_S256x768_S256x64_0_192
  · exact heads_block x0 x1 x2 2 (by decide) 128 (by decide) inb_S256x768_S256x64_0_128
  · exact heads_block x0 x1 x2 1 (by decide) 64 (by decide) inb_S256x768_S256x64_0_64
  · exact heads_block x0 x1 x2 0 (by decide) 0 (by decide) inb_S256x768_S256x64_0_0

/-- The twelve column blocks tile the accumulator (checked by evaluation), so they cover it. -/
theorem cover1_acc (v0 : Vec F S1x256x768 .bf16) (v2 v4 : Vec F S1x2048x768 .bf16) (y : S256x768.Idx) :
    ∃ p ∈ pieces1 v0 v2 v4, y ∈ p.1.set :=
  View.cover_of_tiledL (pieces1 v0 v2 v4) S256x64.size (by sl_kernel_rfl) y

/-- Read whole, the accumulator holds head `h`'s block at columns `64 h … 64 h + 63`. -/
theorem acc1_apply (x0 : Vec F S1x256x768 .bf16) (x1 x2 : Vec F S1x2048x768 .bf16) (i : Fin 256) (h : Fin 12) (d : Fin 64) :
    acc1 (F := F) x0 x1 x2 (Idealize.ShloMosaic.ValueIdx.ix2 i ⟨64 * h.val + d.val, by omega⟩) = heads x0 x1 x2 h (Idealize.ShloMosaic.ValueIdx.ix2 i d) := by
  unfold acc1
  rw [View.ld_unit_zero (S := S1x256x768) offs3_zero, View.ld_unit_zero (S := S1x2048x768) offs3_zero,
    View.ld_unit_zero (S := S1x2048x768) offs3_zero]
  refine (View.canon_apply_of_pieces (accFn x0 x1 x2) (pieces1 x0 x1 x2) (pieces1_block x0 x1 x2) _ (cover1_acc x0 x1 x2 _)).trans ?_
  unfold accFn
  refine congr (congrArg (heads x0 x1 x2) (Fin.ext ?_)) ?_
  · show (64 * h.val + d.val) / 64 = h.val
    have := d.isLt; omega
  · funext a
    match a with
    | ⟨0, _⟩ => rfl
    | ⟨1, _⟩ => exact Fin.ext (by show (64 * h.val + d.val) % 64 = d.val; have := d.isLt; omega)

set_option maxHeartbeats 4000000 in
/-- The body on whole staging buffers, the five inputs' at read contents and the output's and the accumulator's at
    anything, runs to the continuation holding the inputs' as they were, the output's at `out1_5` of the inputs' and the
    accumulator's at something. -/
theorem sound_kernel1 (c : Dev nD) (E : Set ℕ) (i : grid1.Coords)
    (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S768x768 .bf16) (harg5 : arg5.IsWhole)
    (arg6 : Memref sig .tc .vmem S1x768 .f32) (harg6 : arg6.IsWhole) (arg7 : Memref sig .tc .vmem S1x256x768 .f32) (harg7 : arg7.IsWhole)
    (arg8 : Memref sig .tc .vmem S256x768 .f32) (harg8 : arg8.IsWhole)
    (x0 : Vec F S1x256x768 .bf16) (x1 x2 : Vec F S1x2048x768 .bf16) (x3 : Vec F S768x768 .bf16) (x4 : Vec F S1x768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare (out1_5 x0 x1 x2 x3 x4)
            ∗ (∃ d, owns (c : Thread nD τ) arg8 fullShare d)) -∗ K ⟨⟩))
      ⊢ wp frame (wpE (defs₀ (F := F)) Variants.none c none) E (cc1_attn_out_kernel i arg2 harg2 arg3 harg3 arg4 harg4 arg5 harg5 arg6 harg6 arg7 harg7 arg8 harg8) K := by
  simp only [cc1_attn_out_kernel_eq_skeleton]; unfold cc1_attn_out_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    sl_unfold_run_names
    unfold out1_5 acc1 pieces1
    rw [View.readCov_eq_canon']
    rfl
  iexists _, _; isplitr
  swap; · iexact H6
  ipureintro; rfl

/-- info: 'Cert.KernelIdeal.Hand.sound_kernel1' depends on axioms: [propext, Classical.choice, Quot.sound] -/
#guard_msgs in #print axioms sound_kernel1
/-- info: 'Cert.KernelIdeal.Hand.acc1_apply' depends on axioms: [propext, Classical.choice, Quot.sound] -/
#guard_msgs in #print axioms acc1_apply

end Cert.KernelIdeal.Hand

end
-- ==== Proof.KIRegion1.lean ====
/-
  The second kernel region at the buffer contents `V` it is entered from.  Its first three windows read one array
  (rows of queries, and the whole key and value thirds of a batch); the accumulator it fills head by head is a
  scoped buffer of its own, taken from the region's invariant at any contents and given back at any contents.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Tactic
import proofs.«140084_j52699248722576_2_alg».proof.Proof.KIBody1
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- After the body at point `t`: each input's buffer at its block, the output's at the body's result; the array the
    first three windows share is held at three shares that make the full one. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The accumulator held whole at some contents, as its points-to or through its whole memref: the same. -/
theorem scratch_owned (c : Dev nD) :
    (iprop(∃ f : Buf (Elt F) ((c : Thread nD τ).loc cc1_scratch0), ((c : Thread nD τ).loc cc1_scratch0) ↦{fullShare} f) : sProp 𝕄)
      = iprop(∃ d, owns (c : Thread nD τ) (Memref.whole cc1_scratch0) fullShare d) := by
  simp only [owns_whole]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5]
  unfold Pipeline.ΦA
  rw [scopedRest1_eq, scratch_owned]
  iintro ⟨⟨⟨Hs0, Hs1, Hs2, Hs3, Hs4, Hs5, Hs6, Hscr⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr]; · iexact Hscr
  iintro ⟨H0, H1, H2, H3, H4, H5, Hscr⟩
  isplitl [Hs0 Hs1 Hs2 Hs3 Hs4 Hs5 Hs6 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hscr
    · iexact Hp
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIVals.lean ====
/-
  The buffer contents at the boundaries of the two kernel regions, from the launch memory `m`: the first region is
  entered from what the host operations before it leave; it leaves in its result buffer the fold of its write-backs;
  the second region is entered from that, and leaves in the program's result buffer the fold of its write-backs.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Tactic
import proofs.«140084_j52699248722576_2_alg».proof.Proof.KIRegion0
import proofs.«140084_j52699248722576_2_alg».proof.Proof.KIRegion1
import proofs.«140084_j52699248722576_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the first region is entered from: the launch contents after the host operations before it. -/
abbrev Ve0 (c : Dev nD) (b : Ref sig .tc) : Buf (Elt F) ((c : Thread nD τ).loc b) := Gen.V1 m c b

/-- What the first region leaves in its result buffer: its write-backs folded. -/
def qkvArr (c : Dev nD) : Buf (Elt F) ((c : Thread nD τ).loc main_v5) := (dat0 (Ve0 m) c).arrAt 4 cfg0.N

/-- The contents the regions leave, as far as the second region's entry needs them: the first region's result. -/
def outsA : Gen.Outs (F := F) := fun _ r c =>
  if h : r = main_v5 then h ▸ qkvArr m c else Gen.V1 m c r

/-- What the second region is entered from. -/
abbrev Ve1 (c : Dev nD) (b : Ref sig .tc) : Buf (Elt F) ((c : Thread nD τ).loc b) := Gen.V2 m (outsA m) c b

/-- What the second region leaves in the program's result buffer: its write-backs folded. -/
def resArr (c : Dev nD) : Buf (Elt F) ((c : Thread nD τ).loc main_v6) := (dat1 (Ve1 m) c).arrAt 5 cfg1.N

/-- The contents the regions leave. -/
def outs : Gen.Outs (F := F) := fun _ r c =>
  if h : r = main_v5 then h ▸ qkvArr m c else if h' : r = main_v6 then h' ▸ resArr m c else Gen.V1 m c r

theorem outsA_v5 (c : Dev nD) : outsA m 2 main_v5 c = qkvArr m c := by unfold outsA; rw [dif_pos rfl]
theorem outs_v5 (c : Dev nD) : outs m 2 main_v5 c = qkvArr m c := by unfold outs; rw [dif_pos rfl]
theorem outs_v6 (c : Dev nD) : outs m 3 main_v6 c = resArr m c := by
  unfold outs; rw [dif_neg (by decide), dif_pos rfl]

/-- The second region's entry contents do not depend on what it leaves itself. -/
theorem V2_outs (c : Dev nD) : Gen.V2 m (outs m) c = Gen.V2 m (outsA m) c := by
  simp only [Gen.V2, outs_v5, outsA_v5]

/-- The second region's entry contents at the first region's result buffer, and off it. -/
theorem Ve1_v5 (c : Dev nD) : Ve1 m c main_v5 = qkvArr m c := by
  simp only [Ve1, Gen.V2, outsA_v5, Function.update_self]
theorem Ve1_of (c : Dev nD) (r : Ref sig .tc) (h : r ∉ ([main_v5] : List (Ref sig .tc))) : Ve1 m c r = Ve0 m c r :=
  Gen.V2_of m (outsA m) c r h

end Cert.KernelIdeal.Hand

end
-- ==== Proof.KIShare.lean ====
/-
  The second region's arrays, dealt and gathered.  Its first three windows read one array, so at the region's entry
  that buffer's full points-to is dealt in three shares (the left half, and the two halves of the right half), and at
  the exit the three shares, which hold the same contents, are gathered back into the full points-to.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Tactic
import proofs.«140084_j52699248722576_2_alg».proof.Proof.KIRegion1
import Idealize.ShloMosaic.Rules.PointsTo

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares
variable (V : (c : Dev nD) → (b : Ref sig .tc) → Buf (Elt F) ((c : Thread nD τ).loc b))

/-- The arrays of the second region, window by window: the shared array three times, each at its share. -/
theorem arrays1_eq (c : Dev nD) (F' : (w : Fin cfg1.W) → Buf (Elt F) ((cfg1.win w).arr.view.loc (c.tc : Thread nD τ))) :
    ((dat1 V c).arrays F' : sProp 𝕄) = iprop(
      (((c : Thread nD τ).loc main_v5) ↦{fullShare.left} F' 0) ∗ (((c : Thread nD τ).loc main_v5) ↦{fullShare.right.left} F' 1)
      ∗ (((c : Thread nD τ).loc main_v5) ↦{fullShare.right.right} F' 2) ∗ (((c : Thread nD τ).loc main_v1) ↦{fullShare} F' 3)
      ∗ (((c : Thread nD τ).loc main_v4) ↦{fullShare} F' 4) ∗ (((c : Thread nD τ).loc main_v6) ↦{fullShare} F' 5)) := by
  have h1 : ((dat1 V c).arrays F' : sProp 𝕄)
      = bigSep Finset.univ fun w => (((c : Thread nD τ).loc (Pipeline.arrRef spec1 w)) ↦{(dat1 V c).share w} F' w : sProp 𝕄) := by
    unfold Dat.arrays
    exact bigSep_congr fun w _ => by rw [(arr_whole1 w).set_eq_univ]
  rw [h1, bigSep_W1]
  rfl

/-- The distinct buffers behind the second region's windows. -/
theorem arrBufs1_eq (c : Dev nD) (V' : (b : Ref sig .tc) → Buf (Elt F) ((c : Thread nD τ).loc b)) :
    (Pipeline.arrBufs spec1 c V' : sProp 𝕄) = iprop(
      (((c : Thread nD τ).loc main_v5) ↦{fullShare} V' main_v5) ∗ (((c : Thread nD τ).loc main_v1) ↦{fullShare} V' main_v1)
      ∗ (((c : Thread nD τ).loc main_v4) ↦{fullShare} V' main_v4) ∗ (((c : Thread nD τ).loc main_v6) ↦{fullShare} V' main_v6)) := by
  unfold Pipeline.arrBufs
  have himg : Finset.univ.image (Pipeline.arrRef spec1) = insert main_v5 (insert main_v1 (insert main_v4 {main_v6})) := by decide
  rw [himg, bigSep_insert (by decide), bigSep_insert (by decide), bigSep_insert (by decide), bigSep_singleton]
  rfl

/-- A full points-to is three points-tos at the left half and the halves of the right half. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ (ℓ ↦{fullShare.right} f)) :=
    pointsTo_share (PosShare.mem_left_op_right fullShare)
  have h2 : (ℓ ↦{fullShare.right} f : sProp 𝕄) ⊣⊢ iprop((ℓ ↦{fullShare.right.left} f) ∗ (ℓ ↦{fullShare.right.right} f)) :=
    pointsTo_share (PosShare.mem_left_op_right fullShare.right)
  exact ⟨h1.1.trans (sep_mono .rfl h2.1), (sep_mono .rfl h2.2).trans h1.2⟩

/-- Entry and exit: the buffers at contents `V'` are the arrays at any contents that read `V'` window by window. -/
theorem arrays1_iff (c : Dev nD) (V' : (b : Ref sig .tc) → Buf (Elt F) ((c : Thread nD τ).loc b))
    (F' : (w : Fin cfg1.W) → Buf (Elt F) ((cfg1.win w).arr.view.loc (c.tc : Thread nD τ)))
    (hF : ∀ w, F' w = V' (Pipeline.arrRef spec1 w)) :
    (Pipeline.arrBufs spec1 c V' : sProp 𝕄) ⊣⊢ (dat1 V c).arrays F' := by
  rw [arrays1_eq, arrBufs1_eq, hF 0, hF 1, hF 2, hF 3, hF 4, hF 5]
  have h3 := thirds (F := F) (ℓ := (c : Thread nD τ).loc main_v5) (V' main_v5)
  constructor
  · iintro ⟨H5, H1, H4, H6⟩
    ihave H := h3.1 $$ H5
    icases H with ⟨Ha, Hb, Hc⟩
    isplitl [Ha]; · iexact Ha
    isplitl [Hb]; · iexact Hb
    isplitl [Hc]; · iexact Hc
    isplitl [H1]; · iexact H1
    isplitl [H4]; · iexact H4
    iexact H6
  · iintro ⟨Ha, Hb, Hc, H1, H4, H6⟩
    isplitl [Ha Hb Hc]
    · iapply h3.2
      isplitl [Ha]; · iexact Ha
      isplitl [Hb]; · iexact Hb
      iexact Hc
    isplitl [H1]; · iexact H1
    isplitl [H4]; · iexact H4
    iexact H6

end Shares

end Cert.KernelIdeal.Hand

end
-- ==== Proof.KIRun.lean ====
/-
  The whole run of the program: the host operations, then the two kernel regions, as the segments of the launch
  theorem for several regions.  Each region is entered from the thread state "every unscoped buffer at the
  boundary's contents, the generator register at some state, nothing owed" and left at the same with the region's
  result buffer at the fold of its write-backs.  The second region's three windows on one array take that buffer
  in three shares at entry and give them back at exit.  The run ends with the result buffer at what the second
  region left and every argument as launched.
-/
import proofs.«140084_j52699248722576_2_alg».proof.Proof.Gen.KernelIdeal.Skeleton
import proofs.«140084_j52699248722576_2_alg».proof.Proof.Gen.KernelIdeal.Launch
import proofs.«140084_j52699248722576_2_alg».proof.Proof.Gen.KernelIdeal.Points
import proofs.«140084_j52699248722576_2_alg».proof.Proof.KIHeads
import Idealize.ShloMosaic.Lib.Pipeline.FrameBody
import Idealize.ShloMosaic.Lib.Tactic
import proofs.«140084_j52699248722576_2_alg».proof.Proof.KIVals
import proofs.«140084_j52699248722576_2_alg».proof.Proof.KIShare
import proofs.«140084_j52699248722576_2_alg».proof.Proof.KIFrameCond
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## The first region's exit contents -/

theorem hF0 (c : Dev nD) (w : Fin cfg0.W) :
    (pdats m 0 c).arrAt w cfg0.N = Gen.V2 m (outs m) c (Pipeline.arrRef spec0 w) := by
  match w with
  | ⟨0, _⟩ => exact ((dat0 (Ve0 m) c).arrAt_in 0 rfl _).trans (Gen.V2_of m (outs m) c main_arg0 (by decide)).symm
  | ⟨1, _⟩ => exact ((dat0 (Ve0 m) c).arrAt_in 1 rfl _).trans (Gen.V2_of m (outs m) c main_v2 (by decide)).symm
  | ⟨2, _⟩ => exact ((dat0 (Ve0 m) c).arrAt_in 2 rfl _).trans (Gen.V2_of m (outs m) c main_v3 (by decide)).symm
  | ⟨3, _⟩ => exact ((dat0 (Ve0 m) c).arrAt_in 3 rfl _).trans (Gen.V2_of m (outs m) c main_v0 (by decide)).symm
  | ⟨4, _⟩ =>
    show qkvArr m c = _
    simp only [Gen.V2, outs_v5, Function.update_self]

theorem hrest0 (c : Dev nD) : ∀ b, b ∉ Finset.univ.image (Pipeline.arrRef spec0) → Gen.V2 m (outs m) c b = Ve0 m c b :=
  fun b hb => Gen.V2_of m (outs m) c b (by
    intro h
    have : b = main_v5 := by simpa using h
    exact hb (Finset.mem_image.mpr ⟨4, Finset.mem_univ _, this.symm⟩))

/-! ## The second region's exit contents -/

theorem hF1 (c : Dev nD) (w : Fin cfg1.W) :
    (pdats m 1 c).arrAt w cfg1.N = Gen.V3 m (outs m) c (Pipeline.arrRef spec1 w) := by
  have e2 : ∀ r : Ref sig .tc, Gen.V2 m (outs m) c r = Ve1 m c r := fun r => by rw [V2_outs]
  match w with
  | ⟨0, _⟩ => exact ((dat1 (Ve1 m) c).arrAt_in 0 rfl _).trans ((Gen.V3_of m (outs m) c main_v5 (by decide)).trans (e2 _)).symm
  | ⟨1, _⟩ => exact ((dat1 (Ve1 m) c).arrAt_in 1 rfl _).trans ((Gen.V3_of m (outs m) c main_v5 (by decide)).trans (e2 _)).symm
  | ⟨2, _⟩ => exact ((dat1 (Ve1 m) c).arrAt_in 2 rfl _).trans ((Gen.V3_of m (outs m) c main_v5 (by decide)).trans (e2 _)).symm
  | ⟨3, _⟩ => exact ((dat1 (Ve1 m) c).arrAt_in 3 rfl _).trans ((Gen.V3_of m (outs m) c main_v1 (by decide)).trans (e2 _)).symm
  | ⟨4, _⟩ => exact ((dat1 (Ve1 m) c).arrAt_in 4 rfl _).trans ((Gen.V3_of m (outs m) c main_v4 (by decide)).trans (e2 _)).symm
  | ⟨5, _⟩ =>
    show resArr m c = _
    simp only [Gen.V3, outs_v6, Function.update_self]

theorem hrest1 (c : Dev nD) : ∀ b, b ∉ Finset.univ.image (Pipeline.arrRef spec1) → Gen.V3 m (outs m) c b = Ve1 m c b :=
  fun b hb => (Gen.V3_of m (outs m) c b (by
    intro h
    have : b = main_v6 := by simpa using h
    exact hb (Finset.mem_image.mpr ⟨5, Finset.mem_univ _, this.symm⟩))).trans (by rw [V2_outs])

/-! ## The regions as segments -/

set_option backward.isDefEq.respectTransparency.types false in
/-- The first region: its arrays split out of the unscoped buffers and put back at the exit contents; the generator
    register into the region's invariant and out; nothing owed; no semaphore of the kernel's own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: the buffer its first three windows share is dealt in three shares at entry and gathered at
    exit; otherwise as the first. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V2 m (outsA m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit : (unscopedBufs c (Ve1 m c) : sProp 𝕄)
        ⊢ iprop((pdats m 1 c).arrays ((pdats m 1 c).arrAt · 0) ∗ Pipeline.unscopedRest spec1 c (Ve1 m c)) := by
      rw [Pipeline.unscopedBufs_split₀ (Pipeline.pin (pcfgs (F := F)) Gen.adm) 1 winFacts₀1.arr_unscoped c (Ve1 m c)]
      exact sep_mono (arrays1_iff (Ve1 m) c (Ve1 m c) _ (fun _ => rfl)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve1 m c))
        ⊢ (unscopedBufs c (fun b => Gen.V3 m (outs m) c b) : sProp 𝕄) := by
      rw [Pipeline.unscopedBufs_split₀ (Pipeline.pin (pcfgs (F := F)) Gen.adm) 1 winFacts₀1.arr_unscoped c (fun b => Gen.V3 m (outs m) c b)]
      refine sep_mono (arrays1_iff (Ve1 m) c (fun b => Gen.V3 m (outs m) c b) _ (hF1 m c)).2 (BIBase.Entails.of_eq ?_)
      unfold Pipeline.unscopedRest
      exact bigSep_congr fun b hb => by rw [← hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` terminates without a fault, the result buffer at what
    the second region left and every argument as launched. -/
theorem run_res : θ_run defs (onTc (τ := τ) (main (F := F))) ⟨m, fun _ => 0, ρ⟩ (fun r => ∀ c : Dev nD,
      r.2.mem ((c.tc : Thread nD τ).loc main_v6) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := GenP.frame_cond_res (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun _ => .rfl) (fun _ => .rfl)
    (reg1 m) (fun c => by rw [V2_outs]; exact .rfl) (fun _ => .rfl)
  refine (θ_run defs _ _).mono (fun r hr c => ?_) h
  have := hr c
  rw [outs_v6] at this
  exact this

end Cert.KernelIdeal.Hand

end
-- ==== Proof.Spec.lean ====
/-
  The function both programs compute, written once over the extended reals with plain coordinates.

  A row `x[b, n, :]` of 768 numbers is normalised (mean and variance over the row, both as a sum divided by 768,
  the reciprocal square root of the variance plus a small constant, then an affine map with `lw`, `lb`), and
  projected by `wq` to 2304 numbers: a query, a key and a value of 768 numbers each, every one cut in 12 heads of 64.
  For a head `h` the score of a query row `i` against a key row `j` is their dot product over the head's 64
  columns times 1/8; a row of scores is turned into weights by subtracting its maximum, exponentiating and dividing
  by the sum; the context at column `c` (head `c / 64`) is the weighted sum of the value rows at that column; and
  the result is the context projected by `wo` plus `bo`.
-/
import Idealize.ShloMosaic.PureOps.Ideal
import Idealize.ShloMosaic.Lib.ValueIdx

noncomputable section

open scoped BigOperators

namespace Cert.Spec

open Idealize.ShloMosaic Idealize.ShloMosaic.ValueIdx

/-- 768, the length of a row, as the float word both programs divide by. -/
def c768 : EReal := Ideal.ofBits .f32 0x44400000#32
/-- The constant added to the variance. -/
def ceps : EReal := Ideal.ofBits .f32 0x3727C5AC#32
/-- 1/8, the scale of a score. -/
def cscale : EReal := Ideal.ofBits .f32 0x3E000000#32
/-- The word of minus infinity, the start of a running maximum. -/
def cninf : EReal := Ideal.ofBits .f32 0xFF800000#32

/-! ## Row normalisation and the projection to queries, keys and values -/

section Norm
variable (x : Fin 4 → Fin 2048 → Fin 768 → EReal) (lw lb : Fin 768 → EReal) (wq : Fin 2304 → Fin 768 → EReal)

def mean (b : Fin 4) (n : Fin 2048) : EReal := Ideal.div (∑ c : Fin 768, x b n c) c768
def cen (b : Fin 4) (n : Fin 2048) (c : Fin 768) : EReal := x b n c - mean x b n
def var (b : Fin 4) (n : Fin 2048) : EReal := Ideal.div (∑ c : Fin 768, cen x b n c * cen x b n c) c768
def xn (b : Fin 4) (n : Fin 2048) (c : Fin 768) : EReal :=
  cen x b n c * Ideal.rsqrt (var x b n + ceps) * lw c + lb c
def qkv (b : Fin 4) (n : Fin 2048) (f : Fin 2304) : EReal := ∑ c : Fin 768, xn x lw lb b n c * wq f c
end Norm

/-! ## Columns of the 2304-wide array -/

/-- Column `d` of head `h` in the query third. -/
def qcol (h : Fin 12) (d : Fin 64) : Fin 2304 := ⟨64 * h.val + d.val, by omega⟩
/-- Column `d` of head `h` in the key third. -/
def kcol (h : Fin 12) (d : Fin 64) : Fin 2304 := ⟨768 + (64 * h.val + d.val), by omega⟩
/-- Column `c` of the value third. -/
def vcol (c : Fin 768) : Fin 2304 := ⟨1536 + c.val, by omega⟩
/-- The head a column of 768 belongs to. -/
def headOf (c : Fin 768) : Fin 12 := ⟨c.val / 64, by omega⟩

/-! ## Attention over any 2304-wide array, and the output projection -/

section Attn
variable (Q : Fin 4 → Fin 2048 → Fin 2304 → EReal) (wo : Fin 768 → Fin 768 → EReal) (bo : Fin 768 → EReal)

def score (b : Fin 4) (h : Fin 12) (i j : Fin 2048) : EReal :=
  (∑ d : Fin 64, Q b i (qcol h d) * Q b j (kcol h d)) * cscale
def smax (b : Fin 4) (h : Fin 12) (i : Fin 2048) : EReal :=
  (Finset.univ : Finset (Fin 2048)).fold max cninf (fun j => score Q b h i j)
def ex (b : Fin 4) (h : Fin 12) (i j : Fin 2048) : EReal := Ideal.exp (score Q b h i j - smax Q b h i)
def den (b : Fin 4) (h : Fin 12) (i : Fin 2048) : EReal := ∑ j : Fin 2048, ex Q b h i j
def prob (b : Fin 4) (h : Fin 12) (i j : Fin 2048) : EReal := Ideal.div (ex Q b h i j) (den Q b h i)
def ctx (b : Fin 4) (i : Fin 2048) (c : Fin 768) : EReal := ∑ j : Fin 2048, prob Q b (headOf c) i j * Q b j (vcol c)
def out (b : Fin 4) (i : Fin 2048) (o : Fin 768) : EReal := (∑ c : Fin 768, ctx Q b i c * wo o c) + bo o
end Attn

/-- The whole map, on arrays indexed as the programs index them. -/
def G (X : (⟨3, ![4, 2048, 768]⟩ : Shape).Idx → EReal) (LW LB : (⟨1, ![768]⟩ : Shape).Idx → EReal)
    (WQ : (⟨2, ![2304, 768]⟩ : Shape).Idx → EReal) (WO : (⟨2, ![768, 768]⟩ : Shape).Idx → EReal)
    (BO : (⟨1, ![768]⟩ : Shape).Idx → EReal) : (⟨3, ![4, 2048, 768]⟩ : Shape).Idx → EReal :=
  fun i => out (qkv (fun b n c => X (ix3 b n c)) (fun c => LW (ix1 c)) (fun c => LB (ix1 c)) (fun f c => WQ (ix2 f c)))
    (fun o c => WO (ix2 o c)) (fun o => BO (ix1 o)) (i 0) (i 1) (i 2)

end Cert.Spec

end
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.PayQkv.lean ====
/-
  The first kernel's stored block read at an index, on the extended reals.

  Each row of the 512×768 block is normalised: its mean is the row sum divided by the word of 768, the centred
  row is the row minus its mean, the variance is the mean of the squares of the centred row, and the normalised
  entry is centred · rsqrt(variance + ε) · weight + bias. The block is then multiplied by the transposed
  2304×768 matrix, so that the entry (r, f) is ∑ c, normalised[r, c] · wq[f, c]. The narrowings before and after
  the product are the identity on the extended reals. The row operations are stated once as small functions of
  a matrix, each read at an index, and the stored value is shown to be their composition by unfolding.
-/
import proofs.«140084_j52699248722576_2_alg».proof.Proof.Gen.KernelIdeal.Skeleton
import proofs.«140084_j52699248722576_2_alg».proof.Proof.Spec
import proofs.«140084_j52699248722576_2_alg».proof.Proof.LibTransposedDot
import proofs.«140084_j52699248722576_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The mean of each row of a 512×768 matrix, kept as a 512×1 column: the row sum divided by the word of 768. -/
def rowMean (v : FVec Ideal S512x768 .f32) : FVec Ideal S512x1 .f32 :=
  divf (shapeCast S512x1 (multiReduction .add [1] S512 v 0x00000000#32 reduces_S512x768_S512 (.inl rfl) rfl) shapeCasts_S512_S512x1)
    (broadcast S512x1 (Scalar.ofBits .f32 0x44400000#32))

theorem rowMean_apply (v : FVec Ideal S512x768 .f32) (r : Fin 512) (u : Fin 1) :
    rowMean v (ix2 r u) = Ideal.div (∑ c : Fin 768, v (ix2 r c)) Cert.Spec.c768 := by
  refine congrArg (fun t => Ideal.div t Cert.Spec.c768) ?_
  exact (Cert.LibKeepdims.shapeCast_a_a1_apply _ _ r u).trans (Cert.LibKeepdims.rowSum_apply v _ _ _ _ r)

/-- A matrix minus the mean of each of its rows. -/
def centered (v : FVec Ideal S512x768 .f32) : FVec Ideal S512x768 .f32 :=
  subf v (broadcastTo S512x768 (rowMean v) broadcasts_S512x1_S512x768)

theorem centered_apply (v : FVec Ideal S512x768 .f32) (r : Fin 512) (c : Fin 768) :
    centered v (ix2 r c) = v (ix2 r c) - Ideal.div (∑ c : Fin 768, v (ix2 r c)) Cert.Spec.c768 := by
  refine congrArg (fun t => v (ix2 r c) - t) ?_
  exact (Cert.LibKeepdims.broadcastTo_a1_ab_apply _ _ r c).trans (rowMean_apply v r 0)

/-- The reciprocal square root of each row's variance plus ε, as a 512×1 column. -/
def rowScale (v : FVec Ideal S512x768 .f32) : FVec Ideal S512x1 .f32 :=
  rsqrt (addf (rowMean (mulf (centered v) (centered v))) (broadcast S512x1 (Scalar.ofBits .f32 0x3727C5AC#32)))

theorem rowScale_apply (v : FVec Ideal S512x768 .f32) (r : Fin 512) (u : Fin 1) :
    rowScale v (ix2 r u)
      = Ideal.rsqrt (Ideal.div (∑ c : Fin 768, centered v (ix2 r c) * centered v (ix2 r c)) Cert.Spec.c768 + Cert.Spec.ceps) := by
  refine congrArg (fun t => Ideal.rsqrt (t + Cert.Spec.ceps)) ?_
  exact rowMean_apply _ r u

/-- The normalised matrix: centred, scaled row by row, times the weight row plus the bias row. -/
def normed (v : FVec Ideal S512x768 .f32) (w b : FVec Ideal S1x768 .f32) : FVec Ideal S512x768 .f32 :=
  addf (mulf (mulf (centered v) (broadcastTo S512x768 (rowScale v) broadcasts_S512x1_S512x768))
    (broadcastTo S512x768 w broadcasts_S1x768_S512x768)) (broadcastTo S512x768 b broadcasts_S1x768_S512x768)

theorem normed_apply (v : FVec Ideal S512x768 .f32) (w b : FVec Ideal S1x768 .f32) (r : Fin 512) (c : Fin 768) :
    normed v w b (ix2 r c) = centered v (ix2 r c) * rowScale v (ix2 r 0) * w (ix2 0 c) + b (ix2 0 c) := by
  refine congrArg₂ (· + ·) (congrArg₂ (· * ·) (congrArg (fun t => centered v (ix2 r c) * t) ?_) ?_) ?_
  · exact Cert.LibKeepdims.broadcastTo_a1_ab_apply _ _ r c
  · exact broadcastTo_1b_ab_apply _ _ r c
  · exact broadcastTo_1b_ab_apply _ _ r c

/-- The normalised matrix at a row that holds `x[b, n, ·]`, with weight row `lw` and bias row `lb`, is the
    specification's normalised row. -/
theorem normed_spec (x : Fin 4 → Fin 2048 → Fin 768 → EReal) (lw lb : Fin 768 → EReal) (b : Fin 4) (n : Fin 2048)
    (V : FVec Ideal S512x768 .f32) (W Bv : FVec Ideal S1x768 .f32) (r : Fin 512)
    (hV : ∀ c : Fin 768, V (ix2 r c) = x b n c) (hW : ∀ c : Fin 768, W (ix2 0 c) = lw c)
    (hB : ∀ c : Fin 768, Bv (ix2 0 c) = lb c) (c : Fin 768) :
    normed V W Bv (ix2 r c) = Cert.Spec.xn x lw lb b n c := by
  have hmean : Ideal.div (∑ c : Fin 768, V (ix2 r c)) Cert.Spec.c768 = Cert.Spec.mean x b n :=
    congrArg (fun t => Ideal.div t Cert.Spec.c768) (Finset.sum_congr rfl fun c _ => hV c)
  have hcen : ∀ c : Fin 768, centered V (ix2 r c) = Cert.Spec.cen x b n c := fun c =>
    (centered_apply V r c).trans (congrArg₂ (· - ·) (hV c) hmean)
  have hvar : Ideal.div (∑ c : Fin 768, centered V (ix2 r c) * centered V (ix2 r c)) Cert.Spec.c768 = Cert.Spec.var x b n :=
    congrArg (fun t => Ideal.div t Cert.Spec.c768) (Finset.sum_congr rfl fun c _ => congrArg₂ (· * ·) (hcen c) (hcen c))
  refine (normed_apply V W Bv r c).trans ?_
  refine congrArg₂ (· + ·) (congrArg₂ (· * ·) (congrArg₂ (· * ·) (hcen c) ?_) (hW c)) (hB c)
  exact (rowScale_apply V r 0).trans (congrArg (fun t => Ideal.rsqrt (t + Cert.Spec.ceps)) hvar)

/-- The stored block is the product of the normalised block with the transposed weight, cast to rank three. -/
theorem k0_pay1_eq (v0 : Vec Ideal S1x512x768 .f32) (v18 v22 : Vec Ideal S1x768 .f32) (v27 : Vec Ideal S2304x768 .bf16) :
    k0_pay1 (F := Ideal) v0 v18 v22 v27
      = shapeCast S1x512x2304 (truncf .bf16 (matmul dot_S512x768_S2304x768_S512x2304_1_1_0_0_n_n none
          (truncf .bf16 (normed (shapeCast S512x768 v0 shapeCasts_S1x512x768_S512x768) (shapeCast S1x768 v18 shapeCasts_S1x768_S1x768)
            (shapeCast S1x768 v22 shapeCasts_S1x768_S1x768)) bitsLt_bf16_f32)
          (shapeCast S2304x768 v27 shapeCasts_S2304x768_S2304x768 : FVec Ideal S2304x768 .bf16) (constant S512x2304 .f32 0x00000000#32)) bitsLt_bf16_f32)
          shapeCasts_S512x2304_S1x512x2304 := rfl

/-- The first kernel's stored block at `(0, r, f)`, when row `r` of the loaded block holds `x[b, n, ·]`. -/
theorem pay_qkv (x : Fin 4 → Fin 2048 → Fin 768 → EReal) (lw lb : Fin 768 → EReal) (wq : Fin 2304 → Fin 768 → EReal)
    (v0 : Vec Ideal S1x512x768 .f32) (v18 v22 : Vec Ideal S1x768 .f32) (v27 : Vec Ideal S2304x768 .bf16)
    (b : Fin 4) (n : Fin 2048) (r : Fin 512) (f : Fin 2304)
    (h0 : ∀ c : Fin 768, v0 (ix3 0 r c) = x b n c) (h18 : ∀ c : Fin 768, v18 (ix2 0 c) = lw c) (h22 : ∀ c : Fin 768, v22 (ix2 0 c) = lb c)
    (h27 : ∀ (f : Fin 2304) (c : Fin 768), v27 (ix2 f c) = wq f c) :
    k0_pay1 (F := Ideal) v0 v18 v22 v27 (ix3 0 r f) = Cert.Spec.qkv x lw lb wq b n f := by
  refine (congrFun (k0_pay1_eq v0 v18 v22 v27) (ix3 0 r f)).trans ?_
  refine (shapeCast_ab_1ab_apply _ _ 0 r f).trans ?_
  refine (TransposedDot.matmul_zero_apply 512 768 2304 none _ _ r f).trans ?_
  refine Finset.sum_congr rfl fun c _ => congrArg₂ (· * ·) ?_ ?_
  · refine normed_spec x lw lb b n _ _ _ r (fun c => ?_) (fun c => ?_) (fun c => ?_) c
    · exact (shapeCast_1ab_ab_apply v0 _ r c).trans (h0 c)
    · rw [shapeCast_self]; exact h18 c
    · rw [shapeCast_self]; exact h22 c
  · rw [shapeCast_self]; exact h27 f c

end Cert.KernelIdeal.PayValue

end
-- ==== Proof.KIValue0.lean ====
/-
  The first region's result array, index by index: at (b, n, f) it holds the specification's projected entry — row
  (b, n) of the input normalised, times row f of the projection weight — of the launch contents.

  The region's grid is 4×4: point t handles batch t / 4 and the row tile t % 4 (512 rows). At a point the input
  window's block is rows (t % 4) · 512 … + 511 of batch t / 4, the three other input windows are whole arrays (the
  normalisation's weight and bias as 1×768 rows, the projection weight narrowed — the identity on the extended
  reals), and the body stores the payload of these four blocks, which at (0, r, f) is the specification's entry at
  (t / 4, (t % 4) · 512 + r, f). So every point writes back its block of one function `G` of the arguments; the
  blocks cover the array (index (b, n, f) lies in the block of the point 4 b + n / 512), hence the array ends at `G`.
-/
import proofs.«140084_j52699248722576_2_alg».proof.Proof.KIVals
import proofs.«140084_j52699248722576_2_alg».proof.Proof.PayQkv
import proofs.«140084_j52699248722576_2_alg».proof.Proof.Spec
import Idealize.ShloMosaic.Lib.Pipeline.Value
import Idealize.ShloMosaic.Lib.ValueLayout
import Idealize.ShloMosaic.Lib.ValueIdx
import Idealize.ShloMosaic.Lib.StableHlo.Run

noncomputable section

open scoped BigOperators

namespace Cert.KernelIdeal.Value0

open Cert.KernelIdeal Cert.KernelIdeal.Gen Cert.KernelIdeal.Hand Idealize.ShloMosaic Idealize.ShloMosaic.TcCoe Idealize.ShloMosaic.ValueIdx
open Idealize.SL.Sem
open Idealize.ShloMosaic.Pipeline (Dat)

/-! ## The grid's index maps, decided once -/

/-- At point `t` of the 4×4 grid the input block and the output block sit at block index (t / 4, t % 4, 0); the
    three whole-array windows at (0, 0). -/
theorem idx_facts : ∀ t : Fin cfg0.N,
    win0_0.index t (0 : Fin 3) = t.val / 4 ∧ win0_0.index t (1 : Fin 3) = t.val % 4 ∧ win0_0.index t (2 : Fin 3) = 0
    ∧ win0_4.index t (0 : Fin 3) = t.val / 4 ∧ win0_4.index t (1 : Fin 3) = t.val % 4 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

section
variable (m : (ℓ : Loc nD τ sig) → Buf (Elt Ideal) ℓ) (c : Dev nD)

/-! ## What the region is entered from -/

/-- No host operation writes the input. -/
theorem Ve0_arg0 : Ve0 m c main_arg0 = m ((c.tc : Thread nD τ).loc main_arg0) :=
  Gen.V1_of m c main_arg0 (by decide)

/-- The normalisation's weight as a 1×768 row. -/
theorem Ve0_v2 : (Ve0 m c main_v2 : S1x768.Idx → EReal) = shapeCast S1x768 (m ((c.tc : Thread nD τ).loc main_arg1)) shapeCasts_S768_S1x768 := by
  dsimp only [Ve0, Gen.V1, Gen.hostOps0]; after_results; rfl

/-- The normalisation's bias as a 1×768 row. -/
theorem Ve0_v3 : (Ve0 m c main_v3 : S1x768.Idx → EReal) = shapeCast S1x768 (m ((c.tc : Thread nD τ).loc main_arg2)) shapeCasts_S768_S1x768 := by
  dsimp only [Ve0, Gen.V1, Gen.hostOps0]; after_results; rfl

/-- The projection's weight: its narrowing is the identity on the extended reals. -/
theorem Ve0_v0 : (Ve0 m c main_v0 : S2304x768.Idx → EReal) = (m ((c.tc : Thread nD τ).loc main_arg3) : S2304x768.Idx → EReal) := by
  dsimp only [Ve0, Gen.V1, Gen.hostOps0]; after_results; rfl

/-! ## The input blocks at a point -/

/-- Row `r` of the input block at point `t` is row (t % 4) · 512 + r of batch t / 4. -/
theorem iblk_x (t : Fin cfg0.N) (r : Fin 512) (k : Fin 768) (b : Fin 4) (n : Fin 2048)
    (hb : b.val = t.val / 4) (hn : n.val = t.val % 4 * 512 + r.val) :
    (iblk0 (Ve0 m) c 0 t : Vec Ideal S1x512x768 .f32) (ix3 0 r k) = m ((c.tc : Thread nD τ).loc main_arg0) (ix3 b n k) := by
  obtain ⟨e0, e1, e2, -⟩ := idx_facts t
  show Ve0 m c main_arg0 (((cfg0.win 0).blk t).view.emb (ix3 0 r k)) = _
  rw [Ve0_arg0]
  refine congrArg (m ((c.tc : Thread nD τ).loc main_arg0)) ?_
  funext a; apply Fin.ext
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 768 + 1 * k.val = k.val; omega

/-- The weight row's block is the whole row. -/
theorem iblk_lw (t : Fin cfg0.N) (k : Fin 768) :
    (iblk0 (Ve0 m) c 1 t : Vec Ideal S1x768 .f32) (ix2 0 k) = m ((c.tc : Thread nD τ).loc main_arg1) (ix1 k) := by
  obtain ⟨-, -, -, -, -, -, e0, e1, -⟩ := idx_facts t
  show (Ve0 m c main_v2 : S1x768.Idx → EReal) (((cfg0.win 1).blk t).view.emb (ix2 0 k)) = _
  rw [Ve0_v2]
  have hemb : ((cfg0.win 1).blk t).view.emb (ix2 0 k) = ix2 (0 : Fin 1) k := by
    funext a; apply Fin.ext
    match a with
    | ⟨0, _⟩ => show win0_1.index t (0 : Fin 2) * 1 + 1 * 0 = 0; omega
    | ⟨1, _⟩ => show win0_1.index t (1 : Fin 2) * 768 + 1 * k.val = k.val; omega
  rw [hemb]
  exact shapeCast_a_1a_apply _ _ 0 k

/-- The bias row's block is the whole row. -/
theorem iblk_lb (t : Fin cfg0.N) (k : Fin 768) :
    (iblk0 (Ve0 m) c 2 t : Vec Ideal S1x768 .f32) (ix2 0 k) = m ((c.tc : Thread nD τ).loc main_arg2) (ix1 k) := by
  obtain ⟨-, -, -, -, -, -, -, -, e0, e1, -⟩ := idx_facts t
  show (Ve0 m c main_v3 : S1x768.Idx → EReal) (((cfg0.win 2).blk t).view.emb (ix2 0 k)) = _
  rw [Ve0_v3]
  have hemb : ((cfg0.win 2).blk t).view.emb (ix2 0 k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 768 + 1 * k.val = k.val; omega
  rw [hemb]
  exact shapeCast_a_1a_apply _ _ 0 k

/-- The projection weight's block is the whole matrix. -/
theorem iblk_wq (t : Fin cfg0.N) (f : Fin 2304) (k : Fin 768) :
    (iblk0 (Ve0 m) c 3 t : Vec Ideal S2304x768 .bf16) (ix2 f k) = m ((c.tc : Thread nD τ).loc main_arg3) (ix2 f k) := by
  obtain ⟨-, -, -, -, -, -, -, -, -, -, e0, e1⟩ := idx_facts t
  show (Ve0 m c main_v0 : S2304x768.Idx → EReal) (((cfg0.win 3).blk t).view.emb (ix2 f k)) = _
  rw [Ve0_v0]
  refine congrArg (m ((c.tc : Thread nD τ).loc main_arg3) : S2304x768.Idx → EReal) ?_
  funext a; apply Fin.ext
  match a with
  | ⟨0, _⟩ => show win0_3.index t (0 : Fin 2) * 2304 + 1 * f.val = f.val; omega
  | ⟨1, _⟩ => show win0_3.index t (1 : Fin 2) * 768 + 1 * k.val = k.val; omega

/-! ## The array the region leaves -/

/-- The specification's projected array over the launch contents of the four arguments, on array indices. -/
def G : S4x2048x2304.Idx → EReal := fun i =>
  Cert.Spec.qkv (fun b n k => m ((c.tc : Thread nD τ).loc main_arg0) (ix3 b n k)) (fun k => m ((c.tc : Thread nD τ).loc main_arg1) (ix1 k))
    (fun k => m ((c.tc : Thread nD τ).loc main_arg2) (ix1 k)) (fun f k => m ((c.tc : Thread nD τ).loc main_arg3) (ix2 f k)) (i 0) (i 1) (i 2)

/-- The body's stored block at point `t`, entry by entry, is the block of `G` at (t / 4, t % 4, 0). -/
theorem point (t : Fin cfg0.N) (y : S1x512x2304.Idx) :
    k0_pay1 (F := Ideal) (iblk0 (Ve0 m) c 0 t) (iblk0 (Ve0 m) c 1 t) (iblk0 (Ve0 m) c 2 t) (iblk0 (Ve0 m) c 3 t) y
      = G m c (((cfg0.win 4).blk t).view.emb y) := by
  obtain ⟨z, r, f, rfl⟩ : ∃ (z : Fin 1) (r : Fin 512) (f : Fin 2304), y = ix3 z r f := ⟨y 0, y 1, y 2, eq_ix3 y⟩
  obtain rfl : z = 0 := Subsingleton.elim _ _
  obtain ⟨-, -, -, e3, e4, e5, -⟩ := idx_facts t
  have hN : cfg0.N = 16 := N_0
  have ht := t.isLt
  obtain ⟨b, hb⟩ : ∃ b : Fin 4, b.val = t.val / 4 := ⟨⟨t.val / 4, by omega⟩, rfl⟩
  obtain ⟨n, hn⟩ : ∃ n : Fin 2048, n.val = t.val % 4 * 512 + r.val := ⟨⟨t.val % 4 * 512 + r.val, by omega⟩, rfl⟩
  have hemb : ((cfg0.win 4).blk t).view.emb (ix3 0 r f) = ix3 b n f := by
    funext a; apply Fin.ext
    match a with
    | ⟨0, _⟩ => show win0_4.index t (0 : Fin 3) * 1 + 1 * 0 = b.val; omega
    | ⟨1, _⟩ => show win0_4.index t (1 : Fin 3) * 512 + 1 * r.val = n.val; omega
    | ⟨2, _⟩ => show win0_4.index t (2 : Fin 3) * 2304 + 1 * f.val = f.val; omega
  rw [hemb]
  exact Cert.KernelIdeal.PayValue.pay_qkv _ _ _ _ _ _ _ _ b n r f (fun k => iblk_x m c t r k b n hb hn) (fun k => iblk_lw m c t k)
    (fun k => iblk_lb m c t k) (fun f k => iblk_wq m c t f k)

/-- What point `t` writes back is block `t` of `G`. -/
theorem flushed_eq (t : Fin cfg0.N) :
    (dat0 (Ve0 m) c).flushed 4 t = ((cfg0.win 4).blk t).view.read (Elt Ideal) (G m c) := by
  show (cfg0.win 4).cut (grid0.coords t) ((dat0 (Ve0 m) c).after 4 t) = _
  rw [after0_4, out0_4_eq]
  funext y
  exact point m c t y

/-- An index of the array is in point `t`'s block iff each coordinate is in the block's range on its axis. -/
theorem mem_blk (t : Fin cfg0.N) (i : S4x2048x2304.Idx) :
    i ∈ ((cfg0.win 4).blk t).view.set ↔ ∀ a : Fin 3, win0_4.index t a * S1x512x2304.size a ≤ (i a).val ∧ (i a).val < win0_4.index t a * S1x512x2304.size a + S1x512x2304.size a := by
  show i ∈ ((View.whole main_v5).slice (win0_4.rect t)).set ↔ _
  rw [View.set_slice_whole, Rect.mem_set_unit]
  exact Iff.rfl

/-- Every index (b, n, f) is in the block of the point 4 b + n / 512. -/
theorem cover (i : S4x2048x2304.Idx) : ∃ t : Fin cfg0.N, (cfg0.win 4).flush t = true ∧ i ∈ ((cfg0.win 4).blk t).view.set := by
  have hN : cfg0.N = 16 := N_0
  have h0 : (i 0).val < 4 := (i 0).isLt
  have h1 : (i 1).val < 2048 := (i 1).isLt
  have h2 : (i 2).val < 2304 := (i 2).isLt
  obtain ⟨t, ht⟩ : ∃ t : Fin cfg0.N, t.val = 4 * (i 0).val + (i 1).val / 512 := ⟨⟨4 * (i 0).val + (i 1).val / 512, by omega⟩, rfl⟩
  obtain ⟨-, -, -, e3, e4, e5, -⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2304 ≤ (i 2).val ∧ (i 2).val < win0_4.index t (2 : Fin 3) * 2304 + 2304; omega

/-- The array the first region leaves is `G`. -/
theorem qkvArr_eq : Cert.KernelIdeal.Hand.qkvArr (F := Ideal) m c = G m c :=
  (dat0 (Ve0 m) c).arrAt_eq_of_cover 4 (G m c) (fun t _ => flushed_eq m c t) (cover)

end

/-- THE FIRST REGION'S RESULT at (b, n, f) is the specification's projected entry of the launch contents. -/
theorem qkvArr_apply (m : (ℓ : Loc nD τ sig) → Buf (Elt Ideal) ℓ) (c : Dev nD) (b : Fin 4) (n : Fin 2048) (f : Fin 2304) :
    Cert.KernelIdeal.Hand.qkvArr (F := Ideal) m c (ix3 b n f)
      = Cert.Spec.qkv (fun b n k => m ((c.tc : Thread nD τ).loc main_arg0) (ix3 b n k)) (fun k => m ((c.tc : Thread nD τ).loc main_arg1) (ix1 k))
          (fun k => m ((c.tc : Thread nD τ).loc main_arg2) (ix1 k)) (fun f k => m ((c.tc : Thread nD τ).loc main_arg3) (ix2 f k)) b n f := by
  rw [qkvArr_eq]
  rfl

end Cert.KernelIdeal.Value0

end
-- ==== Proof.PayOut.lean ====
/-
  The output projection of the second kernel read at an index, on the extended reals: the 256×768 accumulator
  times the transposed 768×768 weight, plus the bias row, at row i and column o is
  ∑ c, S[i, c] · W[o, c] + B[0, o]. The narrowing of the accumulator before the product is the identity on the
  extended reals, and the casts between a shape and itself read the same index.
-/
import proofs.«140084_j52699248722576_2_alg».proof.Proof.Gen.KernelIdeal.Skeleton
import proofs.«140084_j52699248722576_2_alg».proof.Proof.Spec
import proofs.«140084_j52699248722576_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The stored block of the output projection at `(0, i, o)`. -/
theorem pay_out (S : Vec Ideal S256x768 .f32) (W : Vec Ideal S768x768 .bf16) (B : Vec Ideal S1x768 .f32) (i : Fin 256) (o : Fin 768) :
    k1_pay1 (F := Ideal) (k1_pay25 S) W B (ix3 0 i o) = (∑ c : Fin 768, S (ix2 i c) * W (ix2 o c)) + B (ix2 0 o) := by
  unfold k1_pay1 k1_pay25
  refine (shapeCast_ab_1ab_apply _ _ 0 i o).trans ?_
  refine congrArg₂ (· + ·) ?_ ?_
  · refine (TransposedDot.matmul_zero_apply 256 768 768 none _ _ i o).trans ?_
    refine Finset.sum_congr rfl fun c _ => ?_
    rw [shapeCast_self]
    rfl
  · refine (broadcastTo_1b_ab_apply _ _ i o).trans ?_
    rw [shapeCast_self]

end Cert.KernelIdeal.PayValue

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.PayHead.lean ====
/-
  The twelve heads of the second kernel read at an index, on the extended reals.

  Every head is the same chain applied to three 64-column slices (queries 256×64, keys 2048×64, values 2048×64):
  the score matrix is the product of the query slice with the transposed key slice times 1/8; each row of scores is
  turned into weights by subtracting its maximum (a fold of max from the word of −∞), exponentiating and dividing by
  the row sum; the head's output is the product of the weights with the value slice. The narrowing of the weights
  before the second product is the identity on the extended reals. The chain is stated once as small functions,
  each read at an index; every head's stored piece is that chain of the slices at column offset 64·h, by unfolding.
-/
import proofs.«140084_j52699248722576_2_alg».proof.Proof.Gen.KernelIdeal.Skeleton
import proofs.«140084_j52699248722576_2_alg».proof.Proof.Spec
import proofs.«140084_j52699248722576_2_alg».proof.Proof.KIHeads
import proofs.«140084_j52699248722576_2_alg».proof.Proof.LibTransposedDot
import proofs.«140084_j52699248722576_2_alg».proof.Proof.LibPlainDot
import proofs.«140084_j52699248722576_2_alg».proof.Proof.LibKeepdims
import proofs.«140084_j52699248722576_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The chain, one operation at a time -/

/-- Scores: the query slice times the transposed key slice, times the word of 1/8. -/
def scores (qh : FVec Ideal S256x64 .bf16) (kh : FVec Ideal S2048x64 .bf16) : FVec Ideal S256x2048 .f32 :=
  mulf (matmul dot_S256x64_S2048x64_S256x2048_1_1_0_0_n_n none qh kh (constant S256x2048 .f32 0x00000000#32))
    (broadcast S256x2048 (Scalar.ofBits .f32 0x3E000000#32))

theorem scores_apply (qh : FVec Ideal S256x64 .bf16) (kh : FVec Ideal S2048x64 .bf16) (i : Fin 256) (j : Fin 2048) :
    scores qh kh (ix2 i j) = (∑ e : Fin 64, qh (ix2 i e) * kh (ix2 j e)) * Cert.Spec.cscale :=
  congrArg (fun t => t * Cert.Spec.cscale) (TransposedDot.matmul_zero_apply 256 64 2048 none qh kh i j)

/-- The maximum of each row, from the word of −∞, repeated along the row. -/
def rowMaxB (s : FVec Ideal S256x2048 .f32) : FVec Ideal S256x2048 .f32 :=
  broadcastTo S256x2048 (shapeCast S256x1 (multiReduction .maximumf [1] S256 s 0xFF800000#32 reduces_S256x2048_S256 (.inl rfl) rfl)
    shapeCasts_S256_S256x1) broadcasts_S256x1_S256x2048

theorem rowMaxB_apply (s : FVec Ideal S256x2048 .f32) (i : Fin 256) (j : Fin 2048) :
    rowMaxB s (ix2 i j) = (Finset.univ : Finset (Fin 2048)).fold max Cert.Spec.cninf (fun k => s (ix2 i k)) :=
  (Cert.LibKeepdims.broadcastTo_a1_ab_apply _ _ i j).trans
    ((Cert.LibKeepdims.shapeCast_a_a1_apply _ _ i 0).trans (Cert.LibRowMax.rowMax_apply s _ _ _ _ i))

/-- The exponential of each score minus its row's maximum. -/
def expd (s : FVec Ideal S256x2048 .f32) : FVec Ideal S256x2048 .f32 := exp (subf s (rowMaxB s))

theorem expd_apply (s : FVec Ideal S256x2048 .f32) (i : Fin 256) (j : Fin 2048) :
    expd s (ix2 i j)
      = Ideal.exp (s (ix2 i j) - (Finset.univ : Finset (Fin 2048)).fold max Cert.Spec.cninf (fun k => s (ix2 i k))) :=
  congrArg (fun t => Ideal.exp (s (ix2 i j) - t)) (rowMaxB_apply s i j)

/-- The sum of each row, repeated along the row. -/
def rowSumB (e : FVec Ideal S256x2048 .f32) : FVec Ideal S256x2048 .f32 :=
  broadcastTo S256x2048 (shapeCast S256x1 (multiReduction .add [1] S256 e 0x00000000#32 reduces_S256x2048_S256 (.inl rfl) rfl)
    shapeCasts_S256_S256x1) broadcasts_S256x1_S256x2048

theorem rowSumB_apply (e : FVec Ideal S256x2048 .f32) (i : Fin 256) (j : Fin 2048) :
    rowSumB e (ix2 i j) = ∑ k : Fin 2048, e (ix2 i k) :=
  (Cert.LibKeepdims.broadcastTo_a1_ab_apply _ _ i j).trans
    ((Cert.LibKeepdims.shapeCast_a_a1_apply _ _ i 0).trans (Cert.LibKeepdims.rowSum_apply e _ _ _ _ i))

/-- Each entry divided by its row's sum. -/
def probs (e : FVec Ideal S256x2048 .f32) : FVec Ideal S256x2048 .f32 := divf e (rowSumB e)

theorem probs_apply (e : FVec Ideal S256x2048 .f32) (i : Fin 256) (j : Fin 2048) :
    probs e (ix2 i j) = Ideal.div (e (ix2 i j)) (∑ k : Fin 2048, e (ix2 i k)) :=
  congrArg (fun t => Ideal.div (e (ix2 i j)) t) (rowSumB_apply e i j)

/-- The weights times the value slice. -/
def ctxOf (p : FVec Ideal S256x2048 .f32) (vh : FVec Ideal S2048x64 .bf16) : FVec Ideal S256x64 .f32 :=
  shapeCast S256x64 (matmul dot_S256x2048_S2048x64_S256x64_1_0_0_1_n_n none (truncf .bf16 p bitsLt_bf16_f32) vh
    (constant S256x64 .f32 0x00000000#32)) shapeCasts_S256x64_S256x64

theorem ctxOf_apply (p : FVec Ideal S256x2048 .f32) (vh : FVec Ideal S2048x64 .bf16) (i : Fin 256) (d : Fin 64) :
    ctxOf p vh (ix2 i d) = ∑ j : Fin 2048, p (ix2 i j) * vh (ix2 j d) := by
  unfold ctxOf
  rw [shapeCast_self]
  exact PlainDot.matmul_zero_apply 256 2048 64 none (truncf .bf16 p bitsLt_bf16_f32) vh i d

/-- One head: scores, weights, and the weighted sum of value rows. -/
def headFn (qh : FVec Ideal S256x64 .bf16) (kh vh : FVec Ideal S2048x64 .bf16) : FVec Ideal S256x64 .f32 :=
  ctxOf (probs (expd (scores qh kh))) vh

/-! ## One head against the specification -/

/-- The head a column `64 h + d` belongs to is `h`. -/
theorem headOf_col (h : Fin 12) (d : Fin 64) : Cert.Spec.headOf ⟨64 * h.val + d.val, by omega⟩ = h :=
  Fin.ext (by show (64 * h.val + d.val) / 64 = h.val; omega)

/-- A head whose slices hold the head's query, key and value columns of `Q` computes the specification's context. -/
theorem headFn_spec (Q : Fin 4 → Fin 2048 → Fin 2304 → EReal) (b : Fin 4) (n : Fin 2048) (h : Fin 12) (i : Fin 256) (d : Fin 64)
    (qh : FVec Ideal S256x64 .bf16) (kh vh : FVec Ideal S2048x64 .bf16)
    (hqs : ∀ e : Fin 64, qh (ix2 i e) = Q b n (Cert.Spec.qcol h e))
    (hks : ∀ (j : Fin 2048) (e : Fin 64), kh (ix2 j e) = Q b j (Cert.Spec.kcol h e))
    (hvs : ∀ j : Fin 2048, vh (ix2 j d) = Q b j (Cert.Spec.vcol ⟨64 * h.val + d.val, by omega⟩)) :
    headFn qh kh vh (ix2 i d) = Cert.Spec.ctx Q b n ⟨64 * h.val + d.val, by omega⟩ := by
  have hsc : ∀ j : Fin 2048, scores qh kh (ix2 i j) = Cert.Spec.score Q b h n j := fun j =>
    (scores_apply qh kh i j).trans
      (congrArg (fun t => t * Cert.Spec.cscale) (Finset.sum_congr rfl fun e _ => congrArg₂ (· * ·) (hqs e) (hks j e)))
  have hmx : (Finset.univ : Finset (Fin 2048)).fold max Cert.Spec.cninf (fun k => scores qh kh (ix2 i k)) = Cert.Spec.smax Q b h n :=
    congrArg (fun f => (Finset.univ : Finset (Fin 2048)).fold max Cert.Spec.cninf f) (funext hsc)
  have hex : ∀ j : Fin 2048, expd (scores qh kh) (ix2 i j) = Cert.Spec.ex Q b h n j := fun j =>
    (expd_apply _ i j).trans (congrArg Ideal.exp (congrArg₂ (· - ·) (hsc j) hmx))
  have hden : (∑ k : Fin 2048, expd (scores qh kh) (ix2 i k)) = Cert.Spec.den Q b h n :=
    Finset.sum_congr rfl fun k _ => hex k
  have hpr : ∀ j : Fin 2048, probs (expd (scores qh kh)) (ix2 i j) = Cert.Spec.prob Q b h n j := fun j =>
    (probs_apply _ i j).trans (congrArg₂ Ideal.div (hex j) hden)
  refine (ctxOf_apply _ vh i d).trans ?_
  unfold Cert.Spec.ctx
  rw [headOf_col h d]
  exact Finset.sum_congr rfl fun j _ => congrArg₂ (· * ·) (hpr j) (hvs j)

/-- The same with the slices cut at column offset `o = 64 h` out of the three 768-column blocks. -/
theorem head_spec (Q : Fin 4 → Fin 2048 → Fin 2304 → EReal) (b : Fin 4) (n : Fin 2048) (h : Fin 12) (i : Fin 256) (d : Fin 64)
    (o : Nat) (ho : o = 64 * h.val)
    (V1 : FVec Ideal S256x768 .bf16) (V3 V5 : FVec Ideal S2048x768 .bf16)
    (hs1 : S256x768.Slices ![0, o] S256x64) (hs3 hs5 : S2048x768.Slices ![0, o] S2048x64)
    (hq : ∀ c : Fin 768, V1 (ix2 i c) = Q b n ⟨c.val, by omega⟩)
    (hk : ∀ (j : Fin 2048) (c : Fin 768), V3 (ix2 j c) = Q b j ⟨768 + c.val, by omega⟩)
    (hv : ∀ (j : Fin 2048) (c : Fin 768), V5 (ix2 j c) = Q b j (Cert.Spec.vcol c)) :
    headFn (extractStridedSlice S256x64 ![0, o] V1 hs1) (extractStridedSlice S2048x64 ![0, o] V3 hs3)
        (extractStridedSlice S2048x64 ![0, o] V5 hs5) (ix2 i d)
      = Cert.Spec.ctx Q b n ⟨64 * h.val + d.val, by omega⟩ := by
  refine headFn_spec Q b n h i d _ _ _ (fun e => ?_) (fun j e => ?_) (fun j => ?_)
  · exact (slice2_axis1_apply o V1 hs1 i e ⟨64 * h.val + e.val, by omega⟩ (by show 64 * h.val + e.val = o + e.val; omega)).trans (hq _)
  · exact (slice2_axis1_apply o V3 hs3 j e ⟨64 * h.val + e.val, by omega⟩ (by show 64 * h.val + e.val = o + e.val; omega)).trans (hk j _)
  · exact (slice2_axis1_apply o V5 hs5 j d ⟨64 * h.val + d.val, by omega⟩ (by show 64 * h.val + d.val = o + d.val; omega)).trans (hv j _)

/-! ## The twelve stored pieces -/

/-- Each head's stored piece at `(i, d)`, when the three loaded blocks hold the query row `n`, the key rows and the
    value rows of `Q`. -/
theorem pay_head (Q : Fin 4 → Fin 2048 → Fin 2304 → EReal) (v0 : Vec Ideal S1x256x768 .bf16) (v2 v4 : Vec Ideal S1x2048x768 .bf16)
    (b : Fin 4) (n : Fin 2048) (i : Fin 256) (h : Fin 12) (d : Fin 64)
    (hq : ∀ c : Fin 768, v0 (ix3 0 i c) = Q b n ⟨c.val, by omega⟩)
    (hk : ∀ (j : Fin 2048) (c : Fin 768), v2 (ix3 0 j c) = Q b j ⟨768 + c.val, by omega⟩)
    (hv : ∀ (j : Fin 2048) (c : Fin 768), v4 (ix3 0 j c) = Q b j (Cert.Spec.vcol c)) :
    Cert.KernelIdeal.Hand.heads (F := Ideal) v0 v2 v4 h (ix2 i d) = Cert.Spec.ctx Q b n ⟨64 * h.val + d.val, by omega⟩ := by
  have hq' : ∀ c : Fin 768, k1_pay2 (F := Ideal) v0 (ix2 i c) = Q b n ⟨c.val, by omega⟩ := fun c =>
    (shapeCast_1ab_ab_apply v0 _ i c).trans (hq c)
  have hk' : ∀ (j : Fin 2048) (c : Fin 768), k1_pay3 (F := Ideal) v2 (ix2 j c) = Q b j ⟨768 + c.val, by omega⟩ := fun j c =>
    (shapeCast_1ab_ab_apply v2 _ j c).trans (hk j c)
  have hv' : ∀ (j : Fin 2048) (c : Fin 768), k1_pay4 (F := Ideal) v4 (ix2 j c) = Q b j (Cert.Spec.vcol c) := fun j c =>
    (shapeCast_1ab_ab_apply v4 _ j c).trans (hv j c)
  match h with
  | ⟨0, _⟩ => exact head_spec Q b n ⟨0, by omega⟩ i d 0 rfl _ _ _ slices_S256x768_o0_0_S256x64 slices_S2048x768_o0_0_S2048x64 slices_S2048x768_o0_0_S2048x64 hq' hk' hv'
  | ⟨1, _⟩ => exact head_spec Q b n ⟨1, by omega⟩ i d 64 rfl _ _ _ slices_S256x768_o0_64_S256x64 slices_S2048x768_o0_64_S2048x64 slices_S2048x768_o0_64_S2048x64 hq' hk' hv'
  | ⟨2, _⟩ => exact head_spec Q b n ⟨2, by omega⟩ i d 128 rfl _ _ _ slices_S256x768_o0_128_S256x64 slices_S2048x768_o0_128_S2048x64 slices_S2048x768_o0_128_S2048x64 hq' hk' hv'
  | ⟨3, _⟩ => exact head_spec Q b n ⟨3, by omega⟩ i d 192 rfl _ _ _ slices_S256x768_o0_192_S256x64 slices_S2048x768_o0_192_S2048x64 slices_S2048x768_o0_192_S2048x64 hq' hk' hv'
  | ⟨4, _⟩ => exact head_spec Q b n ⟨4, by omega⟩ i d 256 rfl _ _ _ slices_S256x768_o0_256_S256x64 slices_S2048x768_o0_256_S2048x64 slices_S2048x768_o0_256_S2048x64 hq' hk' hv'
  | ⟨5, _⟩ => exact head_spec Q b n ⟨5, by omega⟩ i d 320 rfl _ _ _ slices_S256x768_o0_320_S256x64 slices_S2048x768_o0_320_S2048x64 slices_S2048x768_o0_320_S2048x64 hq' hk' hv'
  | ⟨6, _⟩ => exact head_spec Q b n ⟨6, by omega⟩ i d 384 rfl _ _ _ slices_S256x768_o0_384_S256x64 slices_S2048x768_o0_384_S2048x64 slices_S2048x768_o0_384_S2048x64 hq' hk' hv'
  | ⟨7, _⟩ => exact head_spec Q b n ⟨7, by omega⟩ i d 448 rfl _ _ _ slices_S256x768_o0_448_S256x64 slices_S2048x768_o0_448_S2048x64 slices_S2048x768_o0_448_S2048x64 hq' hk' hv'
  | ⟨8, _⟩ => exact head_spec Q b n ⟨8, by omega⟩ i d 512 rfl _ _ _ slices_S256x768_o0_512_S256x64 slices_S2048x768_o0_512_S2048x64 slices_S2048x768_o0_512_S2048x64 hq' hk' hv'
  | ⟨9, _⟩ => exact head_spec Q b n ⟨9, by omega⟩ i d 576 rfl _ _ _ slices_S256x768_o0_576_S256x64 slices_S2048x768_o0_576_S2048x64 slices_S2048x768_o0_576_S2048x64 hq' hk' hv'
  | ⟨10, _⟩ => exact head_spec Q b n ⟨10, by omega⟩ i d 640 rfl _ _ _ slices_S256x768_o0_640_S256x64 slices_S2048x768_o0_640_S2048x64 slices_S2048x768_o0_640_S2048x64 hq' hk' hv'
  | ⟨11, _⟩ => exact head_spec Q b n ⟨11, by omega⟩ i d 704 rfl _ _ _ slices_S256x768_o0_704_S256x64 slices_S2048x768_o0_704_S2048x64 slices_S2048x768_o0_704_S2048x64 hq' hk' hv'

end Cert.KernelIdeal.PayValue

end
-- ==== Proof.KIValue1.lean ====
/-
  The array the second kernel region leaves, index by index.

  The region runs over a grid of 4 × 8 points: point t handles batch t / 8 and the 256 query rows
  256 (t % 8) … 256 (t % 8) + 255. It loads those rows of the query third of the 2304-wide array, the whole key and
  value thirds of the batch (columns 768 + k and 1536 + k), the output weight and the bias, and writes back a
  1 × 256 × 768 block of the result. The stored block at (0, i, o) is ∑ k, acc[i, k] · w[o, k] + bias[o], where
  column 64 h + d of the accumulator is head h's weighted sum of value rows at d: the specification's output at
  (t / 8, 256 (t % 8) + i, o). The blocks of the 32 points tile the result array (row n of batch b lies in point
  8 b + n / 256's block), so the array ends holding the specification's output everywhere.
-/
import proofs.«140084_j52699248722576_2_alg».proof.Proof.KIVals
import proofs.«140084_j52699248722576_2_alg».proof.Proof.PayOut
import proofs.«140084_j52699248722576_2_alg».proof.Proof.PayHead
import Idealize.ShloMosaic.Lib.Pipeline.Value
import Idealize.ShloMosaic.Lib.Tactic
import Idealize.ShloMosaic.Lib.ValueIdx
import Idealize.ShloMosaic.Lib.ValueLayout

noncomputable section

open scoped BigOperators

namespace Cert.KernelIdeal.Value1

open Cert.KernelIdeal Cert.KernelIdeal.Gen Cert.KernelIdeal.Hand
open Idealize.ShloMosaic Idealize.ShloMosaic.TcCoe Idealize.ShloMosaic.ValueIdx Idealize.ShloMosaic.Tactic
open Idealize.SL.Sem
open Idealize.ShloMosaic.Pipeline (Dat)

/-! ## One entry of what a grid point stores, over variables -/

/-- Every column of 768 is column `d` of some head `h`. -/
theorem col_split (k : Fin 768) : ∃ (h : Fin 12) (d : Fin 64), k = ⟨64 * h.val + d.val, by omega⟩ :=
  ⟨⟨k.val / 64, by omega⟩, ⟨k.val % 64, by omega⟩, Fin.ext (by show k.val = 64 * (k.val / 64) + k.val % 64; omega)⟩

/-- When the five loaded blocks hold query row `n`, the key and value rows of batch `b`, row `o` of the output
    weight and the bias, the stored block at `(0, i, o)` is the specification's output at `(b, n, o)`: the
    accumulator's column `64 h + d` is head `h`'s piece at `d`, which is the context at that column. -/
theorem point_value (Q : Fin 4 → Fin 2048 → Fin 2304 → EReal) (wo : Fin 768 → Fin 768 → EReal) (bo : Fin 768 → EReal)
    (x0 : Vec Ideal S1x256x768 .bf16) (x1 x2 : Vec Ideal S1x2048x768 .bf16) (x3 : Vec Ideal S768x768 .bf16) (x4 : Vec Ideal S1x768 .f32)
    (b : Fin 4) (n : Fin 2048) (i : Fin 256) (o : Fin 768)
    (hq : ∀ c : Fin 768, x0 (ix3 0 i c) = Q b n ⟨c.val, by omega⟩)
    (hk : ∀ (j : Fin 2048) (c : Fin 768), x1 (ix3 0 j c) = Q b j ⟨768 + c.val, by omega⟩)
    (hv : ∀ (j : Fin 2048) (c : Fin 768), x2 (ix3 0 j c) = Q b j (Cert.Spec.vcol c))
    (h3 : ∀ k : Fin 768, x3 (ix2 o k) = wo o k) (h4 : x4 (ix2 0 o) = bo o) :
    out1_5 (F := Ideal) x0 x1 x2 x3 x4 (ix3 0 i o) = Cert.Spec.out Q wo bo b n o := by
  rw [out1_5_eq]
  refine (Cert.KernelIdeal.PayValue.pay_out _ x3 x4 i o).trans ?_
  refine congrArg₂ (· + ·) (Finset.sum_congr rfl fun k _ => congrArg₂ (· * ·) ?_ (h3 k)) h4
  obtain ⟨h, d, rfl⟩ := col_split k
  exact (acc1_apply x0 x1 x2 i h d).trans (Cert.KernelIdeal.PayValue.pay_head Q x0 x1 x2 b n i h d hq hk hv)

/-! ## The blocks a grid point loads, read off their arrays -/

section Blocks
variable (V : (c : Dev nD) → (b : Ref sig .tc) → Buf (Elt Ideal) ((c : Thread nD τ).loc b))

/-- The printed index maps over the grid of 4 × 8 points: point `t` is batch `t / 8` and query tile `t % 8`; the
    key and value windows sit at block columns 1 and 2 of the same array; the weight and the bias are whole. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

/-- The query block at `(0, i, k)` is the array at batch `t / 8`, row `256 (t % 8) + i`, column `k`. -/
theorem iblk_q (c : Dev nD) (t : Fin cfg1.N) (i : Fin 256) (k : Fin 768) (j : S4x2048x2304.Idx)
    (h0 : (j 0).val = t.val / 8) (h1 : (j 1).val = 256 * (t.val % 8) + i.val) (h2 : (j 2).val = k.val) :
    (iblk1 V c 0 t : S1x256x768.Idx → EReal) (ix3 0 i k) = (V c main_v5 : S4x2048x2304.Idx → EReal) j := by
  obtain ⟨e0, e1, e2, -⟩ := idx_facts t
  unfold iblk1
  rw [View.read_apply]
  show V c main_v5 _ = V c main_v5 _
  refine congrArg (V c main_v5) (funext fun a => Fin.ext ?_)
  match a with
  | ⟨0, _⟩ => show win1_0.index t (0 : Fin 3) * 1 + 1 * 0 = (j 0).val; omega
  | ⟨1, _⟩ => show win1_0.index t (1 : Fin 3) * 256 + 1 * i.val = (j 1).val; omega
  | ⟨2, _⟩ => show win1_0.index t (2 : Fin 3) * 768 + 1 * k.val = (j 2).val; omega

/-- The key block at `(0, r, k)` is the array at batch `t / 8`, row `r`, column `768 + k`. -/
theorem iblk_k (c : Dev nD) (t : Fin cfg1.N) (r : Fin 2048) (k : Fin 768) (j : S4x2048x2304.Idx)
    (h0 : (j 0).val = t.val / 8) (h1 : (j 1).val = r.val) (h2 : (j 2).val = 768 + k.val) :
    (iblk1 V c 1 t : S1x2048x768.Idx → EReal) (ix3 0 r k) = (V c main_v5 : S4x2048x2304.Idx → EReal) j := by
  obtain ⟨-, -, -, e0, e1, e2, -⟩ := idx_facts t
  unfold iblk1
  rw [View.read_apply]
  show V c main_v5 _ = V c main_v5 _
  refine congrArg (V c main_v5) (funext fun a => Fin.ext ?_)
  match a with
  | ⟨0, _⟩ => show win1_1.index t (0 : Fin 3) * 1 + 1 * 0 = (j 0).val; omega
  | ⟨1, _⟩ => show win1_1.index t (1 : Fin 3) * 2048 + 1 * r.val = (j 1).val; omega
  | ⟨2, _⟩ => show win1_1.index t (2 : Fin 3) * 768 + 1 * k.val = (j 2).val; omega

/-- The value block at `(0, r, k)` is the array at batch `t / 8`, row `r`, column `1536 + k`. -/
theorem iblk_v (c : Dev nD) (t : Fin cfg1.N) (r : Fin 2048) (k : Fin 768) (j : S4x2048x2304.Idx)
    (h0 : (j 0).val = t.val / 8) (h1 : (j 1).val = r.val) (h2 : (j 2).val = 1536 + k.val) :
    (iblk1 V c 2 t : S1x2048x768.Idx → EReal) (ix3 0 r k) = (V c main_v5 : S4x2048x2304.Idx → EReal) j := by
  obtain ⟨-, -, -, -, -, -, e0, e1, e2, -⟩ := idx_facts t
  unfold iblk1
  rw [View.read_apply]
  show V c main_v5 _ = V c main_v5 _
  refine congrArg (V c main_v5) (funext fun a => Fin.ext ?_)
  match a with
  | ⟨0, _⟩ => show win1_2.index t (0 : Fin 3) * 1 + 1 * 0 = (j 0).val; omega
  | ⟨1, _⟩ => show win1_2.index t (1 : Fin 3) * 2048 + 1 * r.val = (j 1).val; omega
  | ⟨2, _⟩ => show win1_2.index t (2 : Fin 3) * 768 + 1 * k.val = (j 2).val; omega

/-- The weight block is the whole weight array. -/
theorem iblk_w (c : Dev nD) (t : Fin cfg1.N) (o k : Fin 768) :
    (iblk1 V c 3 t : S768x768.Idx → EReal) (ix2 o k) = (V c main_v1 : S768x768.Idx → EReal) (ix2 o k) := by
  obtain ⟨-, -, -, -, -, -, -, -, -, e0, e1, -⟩ := idx_facts t
  unfold iblk1
  rw [View.read_apply]
  show V c main_v1 _ = V c main_v1 _
  refine congrArg (V c main_v1) (funext fun a => Fin.ext ?_)
  match a with
  | ⟨0, _⟩ => show win1_3.index t (0 : Fin 2) * 768 + 1 * o.val = o.val; omega
  | ⟨1, _⟩ => show win1_3.index t (1 : Fin 2) * 768 + 1 * k.val = k.val; omega

/-- The bias block is the whole bias row. -/
theorem iblk_b (c : Dev nD) (t : Fin cfg1.N) (o : Fin 768) :
    (iblk1 V c 4 t : S1x768.Idx → EReal) (ix2 0 o) = (V c main_v4 : S1x768.Idx → EReal) (ix2 0 o) := by
  obtain ⟨-, -, -, -, -, -, -, -, -, -, -, e0, e1, -⟩ := idx_facts t
  unfold iblk1
  rw [View.read_apply]
  show V c main_v4 _ = V c main_v4 _
  refine congrArg (V c main_v4) (funext fun a => Fin.ext ?_)
  match a with
  | ⟨0, _⟩ => show win1_4.index t (0 : Fin 2) * 1 + 1 * 0 = 0; omega
  | ⟨1, _⟩ => show win1_4.index t (1 : Fin 2) * 768 + 1 * o.val = o.val; omega

end Blocks

/-! ## The arrays the second region is entered from -/

variable (m : (ℓ : Loc nD τ sig) → Buf (Elt Ideal) ℓ)

/-- The weight array the region reads is the launch's weight, narrowed: the same numbers. -/
theorem Ve1_main_v1 (c : Dev nD) :
    (Ve1 m c main_v1 : S768x768.Idx → EReal) = (m ((c.tc : Thread nD τ).loc main_arg4) : S768x768.Idx → EReal) := by
  rw [Ve1_of m c main_v1 (by decide)]
  dsimp only [Ve0, Gen.V1, Gen.hostOps0]
  after_results
  rfl

/-- The bias row the region reads is the launch's bias vector as one row. -/
theorem Ve1_main_v4 (c : Dev nD) (o : Fin 768) :
    (Ve1 m c main_v4 : S1x768.Idx → EReal) (ix2 0 o) = (m ((c.tc : Thread nD τ).loc main_arg5) : S768.Idx → EReal) (ix1 o) := by
  rw [Ve1_of m c main_v4 (by decide)]
  have e : (Ve0 m c main_v4 : S1x768.Idx → EReal)
      = shapeCast S1x768 (m ((c.tc : Thread nD τ).loc main_arg5) : S768.Idx → EReal) shapeCasts_S768_S1x768 := by
    dsimp only [Ve0, Gen.V1, Gen.hostOps0]
    after_results
    rfl
  rw [e]
  exact shapeCast_a_1a_apply _ _ 0 o

/-! ## The result array -/

/-- The 2304-wide array the first region left, by coordinates. -/
def Qm (c : Dev nD) : Fin 4 → Fin 2048 → Fin 2304 → EReal := fun b n f => qkvArr (F := Ideal) m c (ix3 b n f)
/-- The output weight and bias of the launch, by coordinates. -/
def wom (c : Dev nD) : Fin 768 → Fin 768 → EReal := fun o k => m ((c.tc : Thread nD τ).loc main_arg4) (ix2 o k)
def bom (c : Dev nD) : Fin 768 → EReal := fun o => m ((c.tc : Thread nD τ).loc main_arg5) (ix1 o)

/-- What the result array ends holding: the specification's output of those three. -/
def Gout (c : Dev nD) : S4x2048x768.Idx → EReal := fun j => Cert.Spec.out (Qm m c) (wom m c) (bom m c) (j 0) (j 1) (j 2)

/-- What point `t` writes back is block `t` of `Gout`: rows `256 (t % 8) …` of batch `t / 8`. -/
theorem flushed_eq (c : Dev nD) (t : Fin cfg1.N) :
    (dat1 (Ve1 m) c).flushed 5 t = ((cfg1.win 5).blk t).view.read (Elt Ideal) (Gout m c) := by
  have ht : t.val < 32 := lt_of_lt_of_eq t.isLt N_1
  obtain ⟨-, -, -, -, -, -, -, -, -, -, -, -, -, e0, e1, e2⟩ := idx_facts t
  show (cfg1.win 5).cut (grid1.coords t) ((dat1 (Ve1 m) c).after 5 t) = _
  rw [after1_5]
  funext y
  obtain ⟨u, i, o, rfl⟩ : ∃ (u : Fin 1) (i : Fin 256) (o : Fin 768), y = (ix3 u i o : S1x256x768.Idx) :=
    ⟨y 0, y 1, y 2, eq_ix3 (n0 := 1) (n1 := 256) (n2 := 768) y⟩
  obtain rfl : u = 0 := Fin.ext (by omega)
  rw [View.read_apply]
  have hemb : ((cfg1.win 5).blk t).view.emb (ix3 0 i o : S1x256x768.Idx)
      = (ix3 (⟨t.val / 8, by omega⟩ : Fin 4) (⟨256 * (t.val % 8) + i.val, by omega⟩ : Fin 2048) o : S4x2048x768.Idx) :=
    funext fun a => Fin.ext (by
      match a with
      | ⟨0, _⟩ => show win1_5.index t (0 : Fin 3) * 1 + 1 * 0 = t.val / 8; omega
      | ⟨1, _⟩ => show win1_5.index t (1 : Fin 3) * 256 + 1 * i.val = 256 * (t.val % 8) + i.val; omega
      | ⟨2, _⟩ => show win1_5.index t (2 : Fin 3) * 768 + 1 * o.val = o.val; omega)
  show out1_5 (F := Ideal) _ _ _ _ _ (ix3 0 i o) = Gout m c (((cfg1.win 5).blk t).view.emb (ix3 0 i o : S1x256x768.Idx))
  rw [hemb]
  show _ = Cert.Spec.out (Qm m c) (wom m c) (bom m c) (⟨t.val / 8, by omega⟩ : Fin 4) (⟨256 * (t.val % 8) + i.val, by omega⟩ : Fin 2048) o
  refine point_value (Qm m c) (wom m c) (bom m c) (iblk1 (Ve1 m) c 0 t) (iblk1 (Ve1 m) c 1 t) (iblk1 (Ve1 m) c 2 t)
    (iblk1 (Ve1 m) c 3 t) (iblk1 (Ve1 m) c 4 t) ⟨t.val / 8, by omega⟩ ⟨256 * (t.val % 8) + i.val, by omega⟩ i o
    (fun k => ?_) (fun r k => ?_) (fun r k => ?_) (fun k => ?_) ?_
  · refine (iblk_q (Ve1 m) c t i k (ix3 (⟨t.val / 8, by omega⟩ : Fin 4) (⟨256 * (t.val % 8) + i.val, by omega⟩ : Fin 2048) (⟨k.val, by omega⟩ : Fin 2304)) rfl rfl rfl).trans ?_
    rw [Ve1_v5]; rfl
  · refine (iblk_k (Ve1 m) c t r k (ix3 (⟨t.val / 8, by omega⟩ : Fin 4) r (⟨768 + k.val, by omega⟩ : Fin 2304)) rfl rfl rfl).trans ?_
    rw [Ve1_v5]; rfl
  · refine (iblk_v (Ve1 m) c t r k (ix3 (⟨t.val / 8, by omega⟩ : Fin 4) r (Cert.Spec.vcol k)) rfl rfl rfl).trans ?_
    rw [Ve1_v5]; rfl
  · refine (iblk_w (Ve1 m) c t o k).trans ?_
    rw [Ve1_main_v1]; rfl
  · exact (iblk_b (Ve1 m) c t o).trans (Ve1_main_v4 m c o)

/-- Every index of the result array is in some point's block: row `n` of batch `b` in point `8 b + n / 256`'s. -/
theorem cover (j : S4x2048x768.Idx) :
    ∃ t : Fin cfg1.N, (cfg1.win 5).flush t = true ∧ j ∈ ((cfg1.win 5).blk t).view.set := by
  have h0 : (j 0).val < 4 := (j 0).isLt
  have h1 : (j 1).val < 2048 := (j 1).isLt
  have h2 : (j 2).val < 768 := (j 2).isLt
  let t : Fin cfg1.N := ⟨8 * (j 0).val + (j 1).val / 256, by rw [show cfg1.N = 32 from N_1]; omega⟩
  have tv : t.val = 8 * (j 0).val + (j 1).val / 256 := rfl
  obtain ⟨-, -, -, -, -, -, -, -, -, -, -, -, -, e0, e1, e2⟩ := idx_facts t
  refine ⟨t, flush1_5 t, ?_⟩
  show j ∈ ((View.whole main_v6).slice (win1_5.rect t)).set
  rw [View.set_slice_whole, Rect.mem_set_unit]
  intro a
  match a with
  | ⟨0, _⟩ => show win1_5.index t (0 : Fin 3) * 1 ≤ (j 0).val ∧ (j 0).val < win1_5.index t (0 : Fin 3) * 1 + 1; omega
  | ⟨1, _⟩ => show win1_5.index t (1 : Fin 3) * 256 ≤ (j 1).val ∧ (j 1).val < win1_5.index t (1 : Fin 3) * 256 + 256; omega
  | ⟨2, _⟩ => show win1_5.index t (2 : Fin 3) * 768 ≤ (j 2).val ∧ (j 2).val < win1_5.index t (2 : Fin 3) * 768 + 768; omega

/-- The result array after the second region. -/
theorem resArr_eq (c : Dev nD) : (resArr (F := Ideal) m c : S4x2048x768.Idx → EReal) = Gout m c :=
  (dat1 (Ve1 m) c).arrAt_eq_of_cover 5 (Gout m c) (fun t _ => flushed_eq m c t) (cover)

/-- The result array at `(b, n, o)` is the specification's output of the array the first region left and the
    launch's output weight and bias. -/
theorem resArr_apply (m : (ℓ : Loc nD τ sig) → Buf (Elt Ideal) ℓ) (c : Dev nD) (b : Fin 4) (n : Fin 2048) (o : Fin 768) :
    Cert.KernelIdeal.Hand.resArr (F := Ideal) m c (ix3 b n o)
      = Cert.Spec.out (fun b n f => Cert.KernelIdeal.Hand.qkvArr (F := Ideal) m c (ix3 b n f))
          (fun o k => m ((c.tc : Thread nD τ).loc main_arg4) (ix2 o k)) (fun o => m ((c.tc : Thread nD τ).loc main_arg5) (ix1 o)) b n o :=
  congrFun (resArr_eq m c) (ix3 b n o)

end Cert.KernelIdeal.Value1

end
-- ==== Proof.RefNorm.lean ====
/-
  The reference's first stages read at an index: a row of the input is normalised exactly as the specification
  says (mean, centred row, variance, reciprocal square root, affine map), and the projection to the 2304-wide
  array is the specification's sum over the 768 normalised entries.
-/
import proofs.«140084_j52699248722576_2_alg».proof.Proof.Gen.ReferenceIdeal.Read
import proofs.«140084_j52699248722576_2_alg».proof.Proof.Spec

noncomputable section

open scoped BigOperators

namespace Cert.RefValue

open Cert.ReferenceIdeal Cert.ReferenceIdeal.Read Idealize.ShloMosaic Idealize.ShloMosaic.ValueIdx

/-! ## Index equations: the composed index functions at coordinate-built indices -/

/-- The row (b, n, ·) of a [4, 2048, 768] array, reached through the keepdims column [4, 2048, 1]. -/
theorem idx_v0_v1 (b : Fin 4) (n : Fin 2048) (z : Fin 1) (k : Fin 768) :
    idx_main_v0 (idx_main_v1 (ix3 b n z)) k = ix3 b n k :=
  funext fun a => Fin.ext (by match a with | ⟨0, _⟩ => rfl | ⟨1, _⟩ => rfl | ⟨2, _⟩ => rfl)

theorem idx_v7_v8 (b : Fin 4) (n : Fin 2048) (z : Fin 1) (k : Fin 768) :
    idx_main_v7 (idx_main_v8 (ix3 b n z)) k = ix3 b n k :=
  funext fun a => Fin.ext (by match a with | ⟨0, _⟩ => rfl | ⟨1, _⟩ => rfl | ⟨2, _⟩ => rfl)

/-- A column entry broadcast along the row is read at the column's one entry. -/
theorem idx_v4 (b : Fin 4) (n : Fin 2048) (c : Fin 768) : idx_main_v4 (ix3 b n c) = ix3 b n (0 : Fin 1) :=
  funext fun a => Fin.ext (by match a with | ⟨0, _⟩ => rfl | ⟨1, _⟩ => rfl | ⟨2, _⟩ => rfl)

theorem idx_v11 (b : Fin 4) (n : Fin 2048) (c : Fin 768) : idx_main_v11 (ix3 b n c) = ix3 b n (0 : Fin 1) :=
  funext fun a => Fin.ext (by match a with | ⟨0, _⟩ => rfl | ⟨1, _⟩ => rfl | ⟨2, _⟩ => rfl)

theorem idx_v16 (b : Fin 4) (n : Fin 2048) (c : Fin 768) : idx_main_v16 (ix3 b n c) = ix3 b n (0 : Fin 1) :=
  funext fun a => Fin.ext (by match a with | ⟨0, _⟩ => rfl | ⟨1, _⟩ => rfl | ⟨2, _⟩ => rfl)

/-- A vector of 768 broadcast to [1, 1, 768] and then to [4, 2048, 768] is read at the column. -/
theorem idx_v18_v19 (b : Fin 4) (n : Fin 2048) (c : Fin 768) : idx_main_v18 (idx_main_v19 (ix3 b n c)) = ix1 c :=
  funext fun a => Fin.ext (by match a with | ⟨0, _⟩ => rfl)

theorem idx_v21_v22 (b : Fin 4) (n : Fin 2048) (c : Fin 768) : idx_main_v21 (idx_main_v22 (ix3 b n c)) = ix1 c :=
  funext fun a => Fin.ext (by match a with | ⟨0, _⟩ => rfl)

/-- The projection's left operand at (b, n, f) and contraction coordinate k is the row entry (b, n, k) … -/
theorem lidx_v24 (b : Fin 4) (n : Fin 2048) (f : Fin 2304) (k : Fin 768) : lidx_main_v24 (ix3 b n f) k = ix3 b n k :=
  funext fun a => Fin.ext (by match a with | ⟨0, _⟩ => rfl | ⟨1, _⟩ => rfl | ⟨2, _⟩ => rfl)

/-- … and its right operand is the weight entry (f, k). -/
theorem ridx_v24 (b : Fin 4) (n : Fin 2048) (f : Fin 2304) (k : Fin 768) : ridx_main_v24 (ix3 b n f) k = ix2 f k :=
  funext fun a => Fin.ext (by match a with | ⟨0, _⟩ => rfl | ⟨1, _⟩ => rfl)

/-! ## The stages -/

section
variable (x0 : (⟨S4x2048x768, .f32⟩ : BufTy).Contents (Elt Ideal)) (x1 x2 : (⟨S768, .f32⟩ : BufTy).Contents (Elt Ideal))
  (x3 : (⟨S2304x768, .f32⟩ : BufTy).Contents (Elt Ideal))

/-- The mean of row (b, n): the sum of the row (from the zero word) divided by the word of 768. -/
theorem mean_at (b : Fin 4) (n : Fin 2048) (z : Fin 1) :
    val_main_v3 (F := Ideal) x0 (ix3 b n z) = Spec.mean (fun b n c => x0 (ix3 b n c)) b n := by
  rw [val_main_v3_apply, val_main_v1_apply, val_main_v0_apply, val_main_v2_apply, val_main_cst_0_apply, val_main_cst_apply]
  simp only [Ideal.hostDivf_def, Ideal.ofBits_def, Ideal.ofBits_zero_f32, zero_add, idx_v0_v1]
  rfl

/-- The centred entry (b, n, c): the entry minus the row's mean. -/
theorem cen_at (b : Fin 4) (n : Fin 2048) (c : Fin 768) :
    val_main_v5 (F := Ideal) x0 (ix3 b n c) = Spec.cen (fun b n c => x0 (ix3 b n c)) b n c := by
  rw [val_main_v5_apply, val_main_v4_apply, idx_v4, mean_at]
  rfl

/-- The same centred entry, as the program computes it a second time. -/
theorem cen_at' (b : Fin 4) (n : Fin 2048) (c : Fin 768) :
    val_main_v12 (F := Ideal) x0 (ix3 b n c) = Spec.cen (fun b n c => x0 (ix3 b n c)) b n c := by
  rw [val_main_v12_apply, val_main_v11_apply, idx_v11, mean_at]
  rfl

/-- The variance of row (b, n): the sum of the squared centred entries divided by the word of 768. -/
theorem var_at (b : Fin 4) (n : Fin 2048) (z : Fin 1) :
    val_main_v10 (F := Ideal) x0 (ix3 b n z) = Spec.var (fun b n c => x0 (ix3 b n c)) b n := by
  rw [val_main_v10_apply, val_main_v8_apply, val_main_v7_apply, val_main_v9_apply, val_main_cst_2_apply, val_main_cst_1_apply]
  simp only [Ideal.hostDivf_def, Ideal.ofBits_def, Ideal.ofBits_zero_f32, zero_add, idx_v7_v8, val_main_v6_apply,
    Ideal.mulf_def, cen_at]
  rfl

/-- The normalised entry (b, n, c). -/
theorem xn_at (b : Fin 4) (n : Fin 2048) (c : Fin 768) :
    val_main_v23 (F := Ideal) x0 x1 x2 (ix3 b n c)
      = Spec.xn (fun b n c => x0 (ix3 b n c)) (fun c => x1 (ix1 c)) (fun c => x2 (ix1 c)) b n c := by
  rw [val_main_v23_apply, val_main_v20_apply, val_main_v17_apply, val_main_v16_apply, val_main_v15_apply,
    val_main_v14_apply, val_main_v13_apply, val_main_cst_3_apply, val_main_v19_apply, val_main_v18_apply,
    val_main_v22_apply, val_main_v21_apply, idx_v16, idx_v18_v19, idx_v21_v22, cen_at', var_at]
  rfl

/-- The projected entry (b, n, f): the sum over the row's 768 normalised entries times the weight row f. -/
theorem qkv_at (b : Fin 4) (n : Fin 2048) (f : Fin 2304) :
    val_main_v24 (F := Ideal) x0 x1 x2 x3 (ix3 b n f)
      = Spec.qkv (fun b n c => x0 (ix3 b n c)) (fun c => x1 (ix1 c)) (fun c => x2 (ix1 c)) (fun f c => x3 (ix2 f c)) b n f := by
  rw [val_main_v24_apply]
  simp only [lidx_v24, ridx_v24, xn_at]
  rfl

end

end Cert.RefValue

end
-- ==== Proof.RefHeads.lean ====
/-
  The three thirds of the 2304-wide array, cut in heads: the reference slices the array in three, reshapes each third
  [4, 2048, 768] → [4, 2048, 12, 64] and transposes it to [4, 12, 2048, 64]. Read at (b, h, n, d), each is the
  2304-wide array at row (b, n) and at the column of head h and entry d in its third: row-major arithmetic
  (768 = 12 · 64, so column c of a third is head c / 64, entry c % 64).
-/
import proofs.«140084_j52699248722576_2_alg».proof.Proof.Gen.ReferenceIdeal.Read
import proofs.«140084_j52699248722576_2_alg».proof.Proof.Spec

noncomputable section

open scoped BigOperators

namespace Cert.RefValue

open Cert.ReferenceIdeal Cert.ReferenceIdeal.Read Idealize.ShloMosaic Idealize.ShloMosaic.ValueIdx

/-! ## Index equations -/

/-- The query third at (b, h, n, d) is column 64 h + d of row (b, n). -/
theorem idx_q (b : Fin 4) (h : Fin 12) (n : Fin 2048) (d : Fin 64) :
    idx_main_v25 (idx_main_v28 (idx_main_v29 (ix4 b h n d))) = ix3 b n (Spec.qcol h d) :=
  funext fun a => Fin.ext (by
    have hb := b.isLt; have hh := h.isLt; have hn := n.isLt; have hd := d.isLt
    match a with
    | ⟨0, _⟩ => show (((b.val * 2048 + n.val) * 12 + h.val) * 64 + d.val) / 1572864 = b.val; omega
    | ⟨1, _⟩ => show (((b.val * 2048 + n.val) * 12 + h.val) * 64 + d.val) / 768 % 2048 = n.val; omega
    | ⟨2, _⟩ => show (((b.val * 2048 + n.val) * 12 + h.val) * 64 + d.val) % 768 = 64 * h.val + d.val; omega)

/-- The key third at (b, h, n, d) is column 768 + 64 h + d of row (b, n). -/
theorem idx_k (b : Fin 4) (h : Fin 12) (n : Fin 2048) (d : Fin 64) :
    idx_main_v26 (idx_main_v30 (idx_main_v31 (ix4 b h n d))) = ix3 b n (Spec.kcol h d) :=
  funext fun a => Fin.ext (by
    have hb := b.isLt; have hh := h.isLt; have hn := n.isLt; have hd := d.isLt
    match a with
    | ⟨0, _⟩ => show (((b.val * 2048 + n.val) * 12 + h.val) * 64 + d.val) / 1572864 = b.val; omega
    | ⟨1, _⟩ => show (((b.val * 2048 + n.val) * 12 + h.val) * 64 + d.val) / 768 % 2048 = n.val; omega
    | ⟨2, _⟩ => show 768 + (((b.val * 2048 + n.val) * 12 + h.val) * 64 + d.val) % 768 = 768 + (64 * h.val + d.val); omega)

/-- The value third at (b, h, n, d) is column 1536 + c of row (b, n), for the column c = 64 h + d of 768. -/
theorem idx_v (b : Fin 4) (h : Fin 12) (n : Fin 2048) (d : Fin 64) (c : Fin 768) (hc : c.val = 64 * h.val + d.val) :
    idx_main_v27 (idx_main_v32 (idx_main_v33 (ix4 b h n d))) = ix3 b n (Spec.vcol c) :=
  funext fun a => Fin.ext (by
    have hb := b.isLt; have hh := h.isLt; have hn := n.isLt; have hd := d.isLt
    match a with
    | ⟨0, _⟩ => show (((b.val * 2048 + n.val) * 12 + h.val) * 64 + d.val) / 1572864 = b.val; omega
    | ⟨1, _⟩ => show (((b.val * 2048 + n.val) * 12 + h.val) * 64 + d.val) / 768 % 2048 = n.val; omega
    | ⟨2, _⟩ => show 1536 + (((b.val * 2048 + n.val) * 12 + h.val) * 64 + d.val) % 768 = 1536 + c.val; omega)

/-! ## The three arrays of heads -/

section
variable (x0 : (⟨S4x2048x768, .f32⟩ : BufTy).Contents (Elt Ideal)) (x1 x2 : (⟨S768, .f32⟩ : BufTy).Contents (Elt Ideal))
  (x3 : (⟨S2304x768, .f32⟩ : BufTy).Contents (Elt Ideal))

/-- Queries, by head. -/
theorem q_at (b : Fin 4) (h : Fin 12) (n : Fin 2048) (d : Fin 64) :
    val_main_v29 (F := Ideal) x0 x1 x2 x3 (ix4 b h n d) = val_main_v24 (F := Ideal) x0 x1 x2 x3 (ix3 b n (Spec.qcol h d)) := by
  rw [val_main_v29_apply, val_main_v28_apply, val_main_v25_apply, idx_q]

/-- Keys, by head. -/
theorem k_at (b : Fin 4) (h : Fin 12) (n : Fin 2048) (d : Fin 64) :
    val_main_v31 (F := Ideal) x0 x1 x2 x3 (ix4 b h n d) = val_main_v24 (F := Ideal) x0 x1 x2 x3 (ix3 b n (Spec.kcol h d)) := by
  rw [val_main_v31_apply, val_main_v30_apply, val_main_v26_apply, idx_k]

/-- Values, by head. -/
theorem v_at (b : Fin 4) (h : Fin 12) (n : Fin 2048) (d : Fin 64) (c : Fin 768) (hc : c.val = 64 * h.val + d.val) :
    val_main_v33 (F := Ideal) x0 x1 x2 x3 (ix4 b h n d) = val_main_v24 (F := Ideal) x0 x1 x2 x3 (ix3 b n (Spec.vcol c)) := by
  rw [val_main_v33_apply, val_main_v32_apply, val_main_v27_apply, idx_v b h n d c hc]

end

end Cert.RefValue

end
-- ==== Proof.RefAttn.lean ====
/-
  Attention, read at an index over the 2304-wide array `Qarr`: the scores (dot product of a query row and a key row
  over the head's 64 columns, times 1/8), the row maximum (the host's reduce along the last axis of the scores is the
  fold of `max` from minus infinity over that axis; taking the maximum with minus infinity once more changes
  nothing), the exponentials, their row sums, and the weights.
-/
import proofs.«140084_j52699248722576_2_alg».proof.Proof.Gen.ReferenceIdeal.Read
import proofs.«140084_j52699248722576_2_alg».proof.Proof.Spec
import proofs.«140084_j52699248722576_2_alg».proof.Proof.RefHeads

noncomputable section

open scoped BigOperators

namespace Cert.RefValue

open Cert.ReferenceIdeal Cert.ReferenceIdeal.Gen Cert.ReferenceIdeal.Read Idealize.ShloMosaic Idealize.ShloMosaic.ValueIdx

/-! ## Index equations -/

/-- The score (b, h, i, j) multiplies query row i … -/
theorem lidx_v34 (b : Fin 4) (h : Fin 12) (i j : Fin 2048) (k : Fin 64) : lidx_main_v34 (ix4 b h i j) k = ix4 b h i k :=
  funext fun a => Fin.ext (by match a with | ⟨0, _⟩ => rfl | ⟨1, _⟩ => rfl | ⟨2, _⟩ => rfl | ⟨3, _⟩ => rfl)

/-- … with key row j. -/
theorem ridx_v34 (b : Fin 4) (h : Fin 12) (i j : Fin 2048) (k : Fin 64) : ridx_main_v34 (ix4 b h i j) k = ix4 b h j k :=
  funext fun a => Fin.ext (by match a with | ⟨0, _⟩ => rfl | ⟨1, _⟩ => rfl | ⟨2, _⟩ => rfl | ⟨3, _⟩ => rfl)

/-- A row's maximum, broadcast back along the row, is read at the row. -/
theorem idx_v40_v41 (b : Fin 4) (h : Fin 12) (i j : Fin 2048) : idx_main_v40 (idx_main_v41 (ix4 b h i j)) = ix3 b h i :=
  funext fun a => Fin.ext (by match a with | ⟨0, _⟩ => rfl | ⟨1, _⟩ => rfl | ⟨2, _⟩ => rfl)

/-- The row sum at (b, h, i) runs over the entries (b, h, i, k). -/
theorem idx_v44 (b : Fin 4) (h : Fin 12) (i k : Fin 2048) : idx_main_v44 (ix3 b h i) k = ix4 b h i k :=
  funext fun a => Fin.ext (by match a with | ⟨0, _⟩ => rfl | ⟨1, _⟩ => rfl | ⟨2, _⟩ => rfl | ⟨3, _⟩ => rfl)

/-- A row's sum, broadcast back along the row, is read at the row. -/
theorem idx_v45_v46 (b : Fin 4) (h : Fin 12) (i j : Fin 2048) : idx_main_v45 (idx_main_v46 (ix4 b h i j)) = ix3 b h i :=
  funext fun a => Fin.ext (by match a with | ⟨0, _⟩ => rfl | ⟨1, _⟩ => rfl | ⟨2, _⟩ => rfl)

/-- The reduced index (b, h, i) with the coordinate k put back on the last axis is (b, h, i, k). -/
theorem lift_v37 (hR : S4x12x2048x2048.Reduces [3] S4x12x2048) (b : Fin 4) (h : Fin 12) (i : Fin 2048)
    (k : Fin (S4x12x2048x2048.size 3)) : hR.lift (ix3 b h i) k = ix4 b h i (⟨k.val, k.isLt⟩ : Fin 2048) :=
  funext fun a => Fin.ext (by match a with | ⟨0, _⟩ => rfl | ⟨1, _⟩ => rfl | ⟨2, _⟩ => rfl | ⟨3, _⟩ => rfl)

/-! ## Minus infinity and the maximum -/

/-- The word 0xFF800000 is minus infinity: the maximum with it is the other operand. -/
theorem max_cninf (y : EReal) : max (Ideal.ofBits .f32 0xFF800000#32) y = y := by
  simp [Ideal.ofBits, Ideal.ieee]

/-- The host's reduce with a maximum body along the last axis of a [4, 12, 2048, 2048] array, from minus infinity:
    at (b, h, i) the fold of `max` over the row (b, h, i, ·). -/
theorem hostMax_at (y : FVec Ideal S4x12x2048x2048 .f32) (b : Fin 4) (h : Fin 12) (i : Fin 2048) :
    Host.reduce FloatOps.maximumf y (val_main_cst_5 (F := Ideal)) reducesTo_S4x12x2048x2048_S4x12x2048_d3 h_S_ (ix3 b h i)
      = (Finset.univ : Finset (Fin 2048)).fold max Spec.cninf (fun j => y (ix4 b h i j)) := by
  have hR : S4x12x2048x2048.Reduces [3] S4x12x2048 := by decide
  rw [Host.reduce_eq_fold_single FloatOps.maximumf y _ reducesTo_S4x12x2048x2048_S4x12x2048_d3 hR h_S_]
  have hf : (y ∘ hR.lift (ix3 b h i)) = fun k : Fin 2048 => y (ix4 b h i k) :=
    funext fun k => congrArg y (lift_v37 hR b h i k)
  exact congrArg (fun f => Finset.fold max (Ideal.ofBits .f32 0xFF800000#32) f (Finset.univ : Finset (Fin 2048))) hf

/-! ## The stages -/

section
variable (x0 : (⟨S4x2048x768, .f32⟩ : BufTy).Contents (Elt Ideal)) (x1 x2 : (⟨S768, .f32⟩ : BufTy).Contents (Elt Ideal))
  (x3 : (⟨S2304x768, .f32⟩ : BufTy).Contents (Elt Ideal))

/-- The 2304-wide array (queries, keys, values side by side) over plain coordinates. -/
def Qarr : Fin 4 → Fin 2048 → Fin 2304 → EReal := fun b n f => val_main_v24 (F := Ideal) x0 x1 x2 x3 (ix3 b n f)

/-- The score of query row i against key row j in head h. -/
theorem score_at (b : Fin 4) (h : Fin 12) (i j : Fin 2048) :
    val_main_v36 (F := Ideal) x0 x1 x2 x3 (ix4 b h i j) = Spec.score (Qarr x0 x1 x2 x3) b h i j := by
  rw [val_main_v36_apply, val_main_v34_apply, val_main_v35_apply, val_main_cst_4_apply]
  simp only [Ideal.mulf_def, Ideal.ofBits_def, lidx_v34, ridx_v34, q_at, k_at]
  rfl

/-- The maximum of the scores of row i. -/
theorem smax_at (b : Fin 4) (h : Fin 12) (i : Fin 2048) :
    val_main_v39 (F := Ideal) x0 x1 x2 x3 (ix3 b h i) = Spec.smax (Qarr x0 x1 x2 x3) b h i := by
  rw [val_main_v39_apply, val_main_v38_apply, val_main_cst_6_apply]
  unfold val_main_v37
  rw [hostMax_at]
  simp only [Ideal.maximumf_def, Ideal.ofBits_def, score_at, max_cninf]
  rfl

/-- The exponential of a score minus its row's maximum. -/
theorem ex_at (b : Fin 4) (h : Fin 12) (i j : Fin 2048) :
    val_main_v43 (F := Ideal) x0 x1 x2 x3 (ix4 b h i j) = Spec.ex (Qarr x0 x1 x2 x3) b h i j := by
  rw [val_main_v43_apply, val_main_v42_apply, val_main_v41_apply, val_main_v40_apply, idx_v40_v41, smax_at, score_at]
  rfl

/-- The sum of a row's exponentials. -/
theorem den_at (b : Fin 4) (h : Fin 12) (i : Fin 2048) :
    val_main_v44 (F := Ideal) x0 x1 x2 x3 (ix3 b h i) = Spec.den (Qarr x0 x1 x2 x3) b h i := by
  rw [val_main_v44_apply, val_main_cst_7_apply]
  simp only [Ideal.ofBits_def, Ideal.ofBits_zero_f32, zero_add, idx_v44, ex_at]
  rfl

/-- The weight of key row j for query row i. -/
theorem prob_at (b : Fin 4) (h : Fin 12) (i j : Fin 2048) :
    val_main_v47 (F := Ideal) x0 x1 x2 x3 (ix4 b h i j) = Spec.prob (Qarr x0 x1 x2 x3) b h i j := by
  rw [val_main_v47_apply, val_main_v46_apply, val_main_v45_apply, idx_v45_v46, den_at, ex_at]
  rfl

end

end Cert.RefValue

end
-- ==== Proof.RefIsSpec.lean ====
/-
  The reference's result is the specification. The context (the weighted sum of value rows, head by head) is
  transposed and reshaped back to [4, 2048, 768]: column c of the result is head c / 64, entry c % 64, and
  1536 + 64 (c / 64) + c % 64 = 1536 + c is the value column of c. The output projection and the bias then read as
  the specification's last line, and the 2304-wide array is the specification's projection of the normalised rows.
-/
import proofs.«140084_j52699248722576_2_alg».proof.Proof.Gen.ReferenceIdeal.Read
import proofs.«140084_j52699248722576_2_alg».proof.Proof.Spec
import proofs.«140084_j52699248722576_2_alg».proof.Proof.RefNorm
import proofs.«140084_j52699248722576_2_alg».proof.Proof.RefHeads
import proofs.«140084_j52699248722576_2_alg».proof.Proof.RefAttn

noncomputable section

open scoped BigOperators

namespace Cert.RefValue

open Cert.ReferenceIdeal Cert.ReferenceIdeal.Read Idealize.ShloMosaic Idealize.ShloMosaic.ValueIdx

/-! ## Index equations -/

/-- Column c of the [4, 2048, 768] context is, before the reshape and the transpose, entry c % 64 of head c / 64. -/
theorem idx_v49_v50 (b : Fin 4) (i : Fin 2048) (c : Fin 768) :
    idx_main_v49 (idx_main_v50 (ix3 b i c))
      = ix4 b (Spec.headOf c) i (⟨c.val % 64, Nat.mod_lt _ (by decide)⟩ : Fin 64) :=
  funext fun a => Fin.ext (by
    have hb := b.isLt; have hi := i.isLt; have hc := c.isLt
    match a with
    | ⟨0, _⟩ => show ((b.val * 2048 + i.val) * 768 + c.val) / 1572864 = b.val; omega
    | ⟨1, _⟩ => show ((b.val * 2048 + i.val) * 768 + c.val) / 64 % 12 = c.val / 64; omega
    | ⟨2, _⟩ => show ((b.val * 2048 + i.val) * 768 + c.val) / 768 % 2048 = i.val; omega
    | ⟨3, _⟩ => show ((b.val * 2048 + i.val) * 768 + c.val) % 64 = c.val % 64; omega)

/-- The context (b, h, i, d) multiplies the weights of row i … -/
theorem lidx_v48 (b : Fin 4) (h : Fin 12) (i : Fin 2048) (d : Fin 64) (k : Fin 2048) :
    lidx_main_v48 (ix4 b h i d) k = ix4 b h i k :=
  funext fun a => Fin.ext (by match a with | ⟨0, _⟩ => rfl | ⟨1, _⟩ => rfl | ⟨2, _⟩ => rfl | ⟨3, _⟩ => rfl)

/-- … with entry d of the value rows. -/
theorem ridx_v48 (b : Fin 4) (h : Fin 12) (i : Fin 2048) (d : Fin 64) (k : Fin 2048) :
    ridx_main_v48 (ix4 b h i d) k = ix4 b h k d :=
  funext fun a => Fin.ext (by match a with | ⟨0, _⟩ => rfl | ⟨1, _⟩ => rfl | ⟨2, _⟩ => rfl | ⟨3, _⟩ => rfl)

/-- The output projection at (b, n, o) multiplies the context row (b, n, ·) … -/
theorem lidx_v51 (b : Fin 4) (n : Fin 2048) (o : Fin 768) (k : Fin 768) : lidx_main_v51 (ix3 b n o) k = ix3 b n k :=
  funext fun a => Fin.ext (by match a with | ⟨0, _⟩ => rfl | ⟨1, _⟩ => rfl | ⟨2, _⟩ => rfl)

/-- … with the weight row o. -/
theorem ridx_v51 (b : Fin 4) (n : Fin 2048) (o : Fin 768) (k : Fin 768) : ridx_main_v51 (ix3 b n o) k = ix2 o k :=
  funext fun a => Fin.ext (by match a with | ⟨0, _⟩ => rfl | ⟨1, _⟩ => rfl)

/-- The bias, broadcast to [1, 1, 768] and then to [4, 2048, 768], is read at the column. -/
theorem idx_v52_v53 (b : Fin 4) (n : Fin 2048) (o : Fin 768) : idx_main_v52 (idx_main_v53 (ix3 b n o)) = ix1 o :=
  funext fun a => Fin.ext (by match a with | ⟨0, _⟩ => rfl)

/-! ## The stages -/

section
variable (x0 : (⟨S4x2048x768, .f32⟩ : BufTy).Contents (Elt Ideal)) (x1 x2 : (⟨S768, .f32⟩ : BufTy).Contents (Elt Ideal))
  (x3 : (⟨S2304x768, .f32⟩ : BufTy).Contents (Elt Ideal)) (x4 : (⟨S768x768, .f32⟩ : BufTy).Contents (Elt Ideal))
  (x5 : (⟨S768, .f32⟩ : BufTy).Contents (Elt Ideal))

/-- The context at column c: the weights of head c / 64 against the value rows at the value column of c. -/
theorem ctx_at (b : Fin 4) (i : Fin 2048) (c : Fin 768) :
    val_main_v50 (F := Ideal) x0 x1 x2 x3 (ix3 b i c) = Spec.ctx (Qarr x0 x1 x2 x3) b i c := by
  have hc : c.val = 64 * (Spec.headOf c).val + (⟨c.val % 64, Nat.mod_lt _ (by decide)⟩ : Fin 64).val := by
    show c.val = 64 * (c.val / 64) + c.val % 64
    omega
  rw [val_main_v50_apply, val_main_v49_apply, idx_v49_v50, val_main_v48_apply]
  simp only [lidx_v48, ridx_v48, prob_at, fun k => v_at x0 x1 x2 x3 b (Spec.headOf c) k _ c hc]
  rfl

/-- The result at (b, n, o): the context row projected by the weight row o, plus the bias. -/
theorem out_at (b : Fin 4) (n : Fin 2048) (o : Fin 768) :
    val_main_v54 (F := Ideal) x0 x1 x2 x3 x4 x5 (ix3 b n o)
      = Spec.out (Qarr x0 x1 x2 x3) (fun o c => x4 (ix2 o c)) (fun o => x5 (ix1 o)) b n o := by
  rw [val_main_v54_apply, val_main_v51_apply, val_main_v53_apply, val_main_v52_apply, idx_v52_v53]
  simp only [Ideal.addf_def, lidx_v51, ridx_v51, ctx_at]
  rfl

/-- The 2304-wide array is the specification's projection of the normalised rows. -/
theorem Qarr_eq :
    Qarr x0 x1 x2 x3
      = Spec.qkv (fun b n c => x0 (ix3 b n c)) (fun c => x1 (ix1 c)) (fun c => x2 (ix1 c)) (fun f c => x3 (ix2 f c)) :=
  funext fun b => funext fun n => funext fun f => qkv_at x0 x1 x2 x3 b n f

end

/-- THE REFERENCE IS THE SPECIFICATION: its result, as a function of the six arguments, is `Spec.G` of them. -/
theorem ref_is_spec
    (x0 : (⟨Cert.ReferenceIdeal.S4x2048x768, .f32⟩ : BufTy).Contents (Elt Ideal)) (x1 x2 : (⟨Cert.ReferenceIdeal.S768, .f32⟩ : BufTy).Contents (Elt Ideal))
    (x3 : (⟨Cert.ReferenceIdeal.S2304x768, .f32⟩ : BufTy).Contents (Elt Ideal)) (x4 : (⟨Cert.ReferenceIdeal.S768x768, .f32⟩ : BufTy).Contents (Elt Ideal))
    (x5 : (⟨Cert.ReferenceIdeal.S768, .f32⟩ : BufTy).Contents (Elt Ideal)) :
    Cert.ReferenceIdeal.Read.val_main_v54 (F := Ideal) x0 x1 x2 x3 x4 x5 = Cert.Spec.G x0 x1 x2 x3 x4 x5 := by
  funext i
  obtain ⟨b, n, o, rfl⟩ : ∃ (b : Fin 4) (n : Fin 2048) (o : Fin 768), i = ix3 b n o := ⟨i 0, i 1, i 2, eq_ix3 i⟩
  rw [out_at, Qarr_eq]
  rfl

end Cert.RefValue

end
-- ==== Proof.lean ====
/-
  The certificate.  Three frames, the (empty) list of idealization rewrites, and the equality of the two idealized
  programs' results.

  The kernel's program is two kernel regions after five host operations: the first normalises each row of the input
  and projects it to queries, keys and values; the second, per batch and tile of 256 query rows, computes for each of
  the twelve heads the softmax-weighted sum of value rows into an accumulator, and projects the accumulator.  Its run
  (one statement for the word-level program and one for the idealized one, the same text at two instances) ends
  with the result buffer at the fold of the second region's write-backs and every argument as launched; the frames
  are that run with the result dropped.  At the ideal instance that fold is, index by index, the specification
  `Cert.Spec.G` of the arguments: the first region's result array is the projected normalised rows, and the second
  region's blocks are the attention output over that array.  The reference's run ends at its composed term of the
  arguments, which is the same specification read one operation at a time.  No law beyond re-indexing of finite sums is
  used, so the precondition is never opened.
-/
import proofs.«140084_j52699248722576_2_alg».proof.Defs
import proofs.«140084_j52699248722576_2_alg».proof.Proof.Gen.Kernel
import proofs.«140084_j52699248722576_2_alg».proof.Proof.Gen.KernelIdeal
import proofs.«140084_j52699248722576_2_alg».proof.Proof.Gen.ReferenceIdeal
import proofs.«140084_j52699248722576_2_alg».proof.Proof.Gen.Pre_finite_inputs
import proofs.«140084_j52699248722576_2_alg».proof.Proof.Gen.ReferenceIdeal.Run
import proofs.«140084_j52699248722576_2_alg».proof.Proof.Gen.ReferenceIdeal.Read
import proofs.«140084_j52699248722576_2_alg».proof.Proof.KBRun
import proofs.«140084_j52699248722576_2_alg».proof.Proof.KIRun
import proofs.«140084_j52699248722576_2_alg».proof.Proof.KIValue0
import proofs.«140084_j52699248722576_2_alg».proof.Proof.KIValue1
import proofs.«140084_j52699248722576_2_alg».proof.Proof.RefIsSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and leaves its arguments as launched. -/
theorem frame_k : Cert.frame_Kernel := fun m ρ _ =>
  (θ_run Cert.Kernel.defs _ _).mono (fun _ h c => (h c).2) (Cert.Kernel.Hand.run_res (F := Bits) m ρ)

/-- The idealized program runs and leaves its arguments as launched. -/
theorem frame_ki : Cert.frame_KernelIdeal := fun m ρ _ =>
  (θ_run Cert.KernelIdeal.defs _ _).mono (fun _ h c => (h c).2) (Cert.KernelIdeal.Hand.run_res (F := Ideal) m ρ)

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- What the idealized kernel leaves in its result buffer is the specification of its arguments. -/
theorem kernel_is_spec (m : (ℓ : Loc Cert.KernelIdeal.nD Cert.KernelIdeal.τ Cert.KernelIdeal.sig) → Buf (Elt Ideal) ℓ) (c : Dev Cert.KernelIdeal.nD) :
    Cert.KernelIdeal.Hand.resArr (F := Ideal) m c
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  obtain ⟨b, n, o, rfl⟩ : ∃ (b : Fin 4) (n : Fin 2048) (o : Fin 768), i = ix3 b n o := ⟨i 0, i 1, i 2, eq_ix3 i⟩
  rw [Cert.KernelIdeal.Value1.resArr_apply]
  unfold Cert.Spec.G
  refine congrArg (fun Q => Cert.Spec.out Q _ _ b n o) ?_
  funext b' n' f'
  exact Cert.KernelIdeal.Value0.qkvArr_apply m c b' n' f'

/-- The two idealized programs, from memories agreeing on the arguments, end with equal results. -/
theorem algebraic : Cert.algebraic_KernelIdeal_ReferenceIdeal := by
  intro m ρ m' ρ' _ hagree
  refine ⟨fun c => Cert.KernelIdeal.Hand.resArr (F := Ideal) m c, Cert.KernelIdeal.Hand.run_res (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.RefValue.ref_is_spec,
    (hagree c).1, (hagree c).2.1, (hagree c).2.2.1, (hagree c).2.2.2.1, (hagree c).2.2.2.2.1, (hagree c).2.2.2.2.2]
  exact (kernel_is_spec m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
